-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_v27) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x128 : Shape := ⟨2, ![131072, 128]⟩
abbrev S128x256 : Shape := ⟨2, ![128, 256]⟩
abbrev S128 : Shape := ⟨1, ![128]⟩
abbrev S128x128 : Shape := ⟨2, ![128, 128]⟩
abbrev S_ : Shape := ⟨0, ![]⟩

class Facts : Prop where
  bcast_S_S131072x128 : S_.BroadcastsInDim S131072x128 (![] : Fin 0 → Fin S131072x128.rank)
  reducesTo_S131072x128_S_d0_1 : S131072x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_arg11 : FVec F S128x128 .f32) (main_arg12 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg11
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg7 : FVec F S128x256 .f32) (main_arg8 : FVec F S128 .f32) (main_arg9 : FVec F S128x256 .f32) (main_arg10 : FVec F S128 .f32) (main_arg11 : FVec F S128x128 .f32) (main_arg12 : FVec F S128 .f32) (main_v33 : IVec S_ 1) : IVec S_ 1 :=
  let main_v34 : FVec F S128x256 .f32 := Host.absf main_arg7
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x256 .f32 := Host.absf main_arg9
  let main_cst_16 : FVec F S_ .f32 := constant S_ .f32 0x7F800000#32
  let main_v45 : FVec F S128x256 .f32 := broadcastInDim S128x256 ![] bcast_S_S128x256 main_cst_16
  let main_v46 : IVec S128x256 1 := cmpf .olt main_v44 main_v45
  let main_c_17 : IVec S_ 1 := constantI S_ 1 1#1
  let main_v47 : IVec S_ 1 := (fun x v => Host.reduce IntOp.andi x v reducesTo_S128x256_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_v48 main_v49 main_v50

def fn_part1 {F : FTy → Type} [FloatOps F] (main_arg4 : FVec F S128 .f32) (main_arg5 : FVec F S128x256 .f32) (main_arg6 : FVec F S128 .f32) (main_arg7 : FVec F S128x256 .f32) (main_arg8 : FVec F S128 .f32) (main_arg9 : FVec F S128x256 .f32) (main_arg10 : FVec F S128 .f32) (main_arg11 : FVec F S128x128 .f32) (main_arg12 : FVec F S128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x256 .f32 := Host.absf main_arg5
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S131072x128 .f32) (main_arg1 : FVec F S131072x128 .f32) (main_arg2 : FVec F S131072x128 .f32) (main_arg3 : FVec F S128x256 .f32) (main_arg4 : FVec F S128 .f32) (main_arg5 : FVec F S128x256 .f32) (main_arg6 : FVec F S128 .f32) (main_arg7 : FVec F S128x256 .f32) (main_arg8 : FVec F S128 .f32) (main_arg9 : FVec F S128x256 .f32) (main_arg10 : FVec F S128 .f32) (main_arg11 : FVec F S128x128 .f32) (main_arg12 : FVec F S128 .f32) : IVec S_ 1 :=
  let main_v0 : FVec F S131072x128 .f32 := Host.absf main_arg0
  let main_cst : FVec F S_ .f32 := constant S_ .f32 0x7F800000#32
  let main_v1 : FVec F S131072x128 .f32 := broadcastInDim S131072x128 ![] bcast_S_S131072x128 main_cst
  let main_v2 : IVec S131072x128 1 := cmpf .olt main_v0 main_v1
  let main_c : IVec S_ 1 := constantI S_ 1 1#1
  let main_v3 : IVec S_ 1 := (fun x v => Host.reduce IntOp.andi x v reducesTo_S131072x128_S_d0_1 h_S_) main_v2 main_c
  let main_v4 : FVec F S131072x128 .f32 := Host.absf main_arg1
  let main_cst_0 : FVec F S_ .f32 := constant S_ .f32 0x7F800000#32
  let main_v5 : FVec F S131072x128 .f32 := broadcastInDim S131072x128 ![] bcast_S_S131072x128 main_cst_0
  let main_v6 : IVec S131072x128 1 := cmpf .olt main_v4 main_v5
  let main_c_1 : IVec S_ 1 := constantI S_ 1 1#1
  let main_v7 : IVec S_ 1 := (fun x v => Host.reduce IntOp.andi x v reducesTo_S131072x128_S_d0_1 h_S_) main_v6 main_c_1
  let main_v8 : IVec S_ 1 := andi main_v3 main_v7
  let main_v9 : FVec F S131072x128 .f32 := Host.absf main_arg2
  let main_cst_2 : FVec F S_ .f32 := constant S_ .f32 0x7F800000#32
  let main_v10 : FVec F S131072x128 .f32 := broadcastInDim S131072x128 ![] bcast_S_S131072x128 main_cst_2
  let main_v11 : IVec S131072x128 1 := cmpf .olt main_v9 main_v10
  let main_c_3 : IVec S_ 1 := constantI S_ 1 1#1
  let main_v12 : IVec S_ 1 := (fun x v => Host.reduce IntOp.andi x v reducesTo_S131072x128_S_d0_1 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg4 main_arg5 main_arg6 main_arg7 main_arg8 main_arg9 main_arg10 main_arg11 main_arg12 main_v13 main_v16
-- ==== Kernel.lean ====
abbrev S131072x128 : Shape := ⟨2, ![131072, 128]⟩
abbrev S128x256 : Shape := ⟨2, ![128, 256]⟩
abbrev S128 : Shape := ⟨1, ![128]⟩
abbrev S128x128 : Shape := ⟨2, ![128, 128]⟩
abbrev S512x256 : Shape := ⟨2, ![512, 256]⟩
abbrev S512 : Shape := ⟨1, ![512]⟩
abbrev S256x512 : Shape := ⟨2, ![256, 512]⟩
abbrev S128x512 : Shape := ⟨2, ![128, 512]⟩
abbrev S1x512 : Shape := ⟨2, ![1, 512]⟩
abbrev S1x128 : Shape := ⟨2, ![1, 128]⟩
abbrev S2048x128 : Shape := ⟨2, ![2048, 128]⟩
abbrev S2048x512 : Shape := ⟨2, ![2048, 512]⟩

abbrev nBuf : Space → Nat
  | .hbm => 24
  | .vmem => 17
  | .smem => 0
  | _ => 0

abbrev bufTy : (tb : Table) → Fin (tcTables nBuf tb) → BufTy
  | .hbm, ⟨0, _⟩ => ⟨S131072x128, .f32⟩
  | .hbm, ⟨1, _⟩ => ⟨S131072x128, .f32⟩
  | .hbm, ⟨2, _⟩ => ⟨S131072x128, .f32⟩
  | .hbm, ⟨3, _⟩ => ⟨S128x256, .f32⟩
  | .hbm, ⟨4, _⟩ => ⟨S128, .f32⟩
  | .hbm, ⟨5, _⟩ => ⟨S128x256, .f32⟩
  | .hbm, ⟨6, _⟩ => ⟨S128, .f32⟩
  | .hbm, ⟨7, _⟩ => ⟨S128x256, .f32⟩
  | .hbm, ⟨8, _⟩ => ⟨S128, .f32⟩
  | .hbm, ⟨9, _⟩ => ⟨S128x256, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S512x256, .f32⟩
  | .hbm, ⟨14, _⟩ => ⟨S512, .f32⟩
  | .hbm, ⟨15, _⟩ => ⟨S256x512, .f32⟩
  | .hbm, ⟨16, _⟩ => ⟨S128x512, .f32⟩
  | .hbm, ⟨17, _⟩ => ⟨S128x512, .f32⟩
  | .hbm, ⟨18, _⟩ => ⟨S1x512, .f32⟩
  | .hbm, ⟨19, _⟩ => ⟨S128x128, .f32⟩
  | .hbm, ⟨20, _⟩ => ⟨S1x128, .f32⟩
  | .hbm, ⟨21, _⟩ => ⟨S131072x128, .f32⟩
  | .hbm, ⟨22, _⟩ => ⟨S131072x128, .f32⟩
  | .hbm, ⟨23, _⟩ => ⟨S131072x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S128x512, .f32⟩
  | .local _ .vmem, ⟨7, _⟩ => ⟨S128x512, .f32⟩
  | .local _ .vmem, ⟨8, _⟩ => ⟨S1x512, .f32⟩
  | .local _ .vmem, ⟨9, _⟩ => ⟨S128x128, .f32⟩
  | .local _ .vmem, ⟨10, _⟩ => ⟨S1x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8_0 : Ref sig .tc := ⟨.hbm, 21, rfl⟩
abbrev main_v8_1 : Ref sig .tc := ⟨.hbm, 22, rfl⟩
abbrev main_v8_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  concatenates_S128x256_S128x256_S128x256_S128x256_S512x256_d0 : Shape.Concatenates [S128x256, S128x256, S128x256, S128x256] S512x256 0
  concatenates_S128_S128_S128_S128_S512_d0 : Shape.Concatenates [S128, S128, S128, S128] S512 0
  transposes_S512x256_S256x512_1_0 : S512x256.Transposes [1, 0] S256x512
  slices_S256x512_S128x512_0_0 : S256x512.Slices ![0, 0] S128x512
  slices_S256x512_S128x512_128_0 : S256x512.Slices ![128, 0] S128x512
  shapeCasts_S512_S1x512 : S512.ShapeCasts S1x512
  transposes_S128x128_S128x128_1_0 : S128x128.Transposes [1, 0] S128x128
  shapeCasts_S128_S1x128 : S128.ShapeCasts S1x128
  inb_S2048x128_S2048x128_0_0 : ∀ a, (![0, 0] : Fin 2 → Nat) a + S2048x128.size a ≤ S2048x128.size a
  h_S2048x128 : 0 < S2048x128.numel
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  slices_S2048x512_o0_0_S2048x128 : S2048x512.Slices ![0, 0] S2048x128
  slices_S2048x512_o0_128_S2048x128 : S2048x512.Slices ![0, 128] S2048x128
  slices_S2048x512_o0_256_S2048x128 : S2048x512.Slices ![0, 256] S2048x128
  slices_S2048x512_o0_384_S2048x128 : S2048x512.Slices ![0, 384] S2048x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  dot_S2048x128_S128x512_S2048x512_1_0_0_1_n_n_wf : DotDims.WF S2048x128 S128x512 S2048x512 [1] [0] [0] [1] [] []
  dot_S2048x128_S128x128_S2048x128_1_0_0_1_n_n_wf : DotDims.WF S2048x128 S128x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S131072x128.size a
  hwx0_0 : ∀ i : grid0.Coords, EltTy.bits .f32 = 32 ∨ (Rect.block (s := S131072x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S131072x128.size a
  hwx0_1 : ∀ i : grid0.Coords, EltTy.bits .f32 = 32 ∨ (Rect.block (s := S131072x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S131072x128.size a
  hwx0_2 : ∀ i : grid0.Coords, EltTy.bits .f32 = 32 ∨ (Rect.block (s := S131072x128) S2048x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S128x512.size a
  hwx0_3 : ∀ i : grid0.Coords, EltTy.bits .f32 = 32 ∨ (Rect.block (s := S128x512) S128x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x512.size a ≤ S128x512.size a
  hwx0_4 : ∀ i : grid0.Coords, EltTy.bits .f32 = 32 ∨ (Rect.block (s := S128x512) S128x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x128.size a ≤ S131072x128.size a
  hwx0_8 : ∀ i : grid0.Coords, EltTy.bits .f32 = 32 ∨ (Rect.block (s := S131072x128) S2048x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x128.size a ≤ S131072x128.size a
  hwx0_9 : ∀ i : grid0.Coords, EltTy.bits .f32 = 32 ∨ (Rect.block (s := S131072x128) S2048x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2048x128.size a ≤ S131072x128.size a
  hwx0_10 : ∀ i : grid0.Coords, EltTy.bits .f32 = 32 ∨ (Rect.block (s := S131072x128) S2048x128.size (cc0_transform_10 i) (hinb0_10 i)).WholeWords (EltTy.packing .f32)

variable [Facts₀]

def dot_S2048x128_S128x512_S2048x512_1_0_0_1_n_n : DotDims S2048x128 S128x512 S2048x512 where
  lhsContracting := [1]
  rhsContracting := [0]
  lhsNonContracting := [0]
  rhsNonContracting := [1]
  lhsBatch := []
  rhsBatch := []
  wf := dot_S2048x128_S128x512_S2048x512_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S128x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S128x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8_0) S2048x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v8_1) S2048x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v8_2) S2048x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S131072x128 : Shape := ⟨2, ![131072, 128]⟩
abbrev S128x256 : Shape := ⟨2, ![128, 256]⟩
abbrev S128 : Shape := ⟨1, ![128]⟩
abbrev S128x128 : Shape := ⟨2, ![128, 128]⟩
abbrev S131072x256 : Shape := ⟨2, ![131072, 256]⟩
abbrev S512x256 : Shape := ⟨2, ![512, 256]⟩
abbrev S512 : Shape := ⟨1, ![512]⟩
abbrev S256x512 : Shape := ⟨2, ![256, 512]⟩
abbrev S131072x512 : Shape := ⟨2, ![131072, 512]⟩
abbrev S1x512 : Shape := ⟨2, ![1, 512]⟩
abbrev S_ : Shape := ⟨0, ![]⟩
abbrev S1x128 : Shape := ⟨2, ![1, 128]⟩

abbrev nBuf : Space → Nat
  | .hbm => 60
  | .vmem => 0
  | .smem => 0
  | _ => 0

abbrev bufTy : (tb : Table) → Fin (tcTables nBuf tb) → BufTy
  | .hbm, ⟨0, _⟩ => ⟨S131072x128, .f32⟩
  | .hbm, ⟨1, _⟩ => ⟨S131072x128, .f32⟩
  | .hbm, ⟨2, _⟩ => ⟨S131072x128, .f32⟩
  | .hbm, ⟨3, _⟩ => ⟨S128x256, .f32⟩
  | .hbm, ⟨4, _⟩ => ⟨S128, .f32⟩
  | .hbm, ⟨5, _⟩ => ⟨S128x256, .f32⟩
  | .hbm, ⟨6, _⟩ => ⟨S128, .f32⟩
  | .hbm, ⟨7, _⟩ => ⟨S128x256, .f32⟩
  | .hbm, ⟨8, _⟩ => ⟨S128, .f32⟩
  | .hbm, ⟨9, _⟩ => ⟨S128x256, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S131072x256, .f32⟩
  | .hbm, ⟨14, _⟩ => ⟨S512x256, .f32⟩
  | .hbm, ⟨15, _⟩ => ⟨S512, .f32⟩
  | .hbm, ⟨16, _⟩ => ⟨S256x512, .f32⟩
  | .hbm, ⟨17, _⟩ => ⟨S131072x512, .f32⟩
  | .hbm, ⟨18, _⟩ => ⟨S1x512, .f32⟩
  | .hbm, ⟨19, _⟩ => ⟨S131072x512, .f32⟩
  | .hbm, ⟨20, _⟩ => ⟨S131072x512, .f32⟩
  | .hbm, ⟨21, _⟩ => ⟨S131072x128, .f32⟩
  | .hbm, ⟨22, _⟩ => ⟨S131072x128, .f32⟩
  | .hbm, ⟨23, _⟩ => ⟨S131072x128, .f32⟩
  | .hbm, ⟨24, _⟩ => ⟨S131072x128, .f32⟩
  | .hbm, ⟨25, _⟩ => ⟨S131072x128, .f32⟩
  | .hbm, ⟨26, _⟩ => ⟨S131072x128, .f32⟩
  | .hbm, ⟨27, _⟩ => ⟨S_, .f32⟩
  | .hbm, ⟨28, _⟩ => ⟨S131072x128, .f32⟩
  | .hbm, ⟨29, _⟩ => ⟨S131072x128, .f32⟩
  | .hbm, ⟨30, _⟩ => ⟨S_, .f32⟩
  | .hbm, ⟨31, _⟩ => ⟨S131072x128, .f32⟩
  | .hbm, ⟨32, _⟩ => ⟨S131072x128, .f32⟩
  | .hbm, ⟨33, _⟩ => ⟨S131072x128, .f32⟩
  | .hbm, ⟨34, _⟩ => ⟨S131072x128, .f32⟩
  | .hbm, ⟨35, _⟩ => ⟨S_, .f32⟩
  | .hbm, ⟨36, _⟩ => ⟨S131072x128, .f32⟩
  | .hbm, ⟨37, _⟩ => ⟨S131072x128, .f32⟩
  | .hbm, ⟨38, _⟩ => ⟨S_, .f32⟩
  | .hbm, ⟨39, _⟩ => ⟨S131072x128, .f32⟩
  | .hbm, ⟨40, _⟩ => ⟨S131072x128, .f32⟩
  | .hbm, ⟨41, _⟩ => ⟨S131072x128, .f32⟩
  | .hbm, ⟨42, _⟩ => ⟨S131072x128, .f32⟩
  | .hbm, ⟨43, _⟩ => ⟨S131072x128, .f32⟩
  | .hbm, ⟨44, _⟩ => ⟨S131072x128, .f32⟩
  | .hbm, ⟨45, _⟩ => ⟨S131072x128, .f32⟩
  | .hbm, ⟨46, _⟩ => ⟨S131072x128, .f32⟩
  | .hbm, ⟨47, _⟩ => ⟨S_, .f32⟩
  | .hbm, ⟨48, _⟩ => ⟨S131072x128, .f32⟩
  | .hbm, ⟨49, _⟩ => ⟨S131072x128, .f32⟩
  | .hbm, ⟨50, _⟩ => ⟨S_, .f32⟩
  | .hbm, ⟨51, _⟩ => ⟨S131072x128, .f32⟩
  | .hbm, ⟨52, _⟩ => ⟨S131072x128, .f32⟩
  | .hbm, ⟨53, _⟩ => ⟨S131072x128, .f32⟩
  | .hbm, ⟨54, _⟩ => ⟨S131072x128, .f32⟩
  | .hbm, ⟨55, _⟩ => ⟨S128x128, .f32⟩
  | .hbm, ⟨56, _⟩ => ⟨S131072x128, .f32⟩
  | .hbm, ⟨57, _⟩ => ⟨S1x128, .f32⟩
  | .hbm, ⟨58, _⟩ => ⟨S131072x128, .f32⟩
  | .hbm, ⟨59, _⟩ => ⟨S131072x128, .f32⟩
  | _, _ => ⟨S131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev main_cst_0 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_1 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_3 : Ref sig .tc := ⟨.hbm, 47, rfl⟩
abbrev main_v30 : Ref sig .tc := ⟨.hbm, 48, rfl⟩
abbrev main_v31 : Ref sig .tc := ⟨.hbm, 49, rfl⟩
abbrev main_cst_4 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩

abbrev nD : Nat := 1
abbrev τ : Topo := Topo.v7x

variable {F : FTy → Type} [FloatOps F]

class Facts₀ : Prop where
  concatenates_S131072x128_S131072x128_S131072x256_d1 : Shape.Concatenates [S131072x128, S131072x128] S131072x256 1
  concatenates_S128x256_S128x256_S128x256_S128x256_S512x256_d0 : Shape.Concatenates [S128x256, S128x256, S128x256, S128x256] S512x256 0
  concatenates_S128_S128_S128_S128_S512_d0 : Shape.Concatenates [S128, S128, S128, S128] S512 0
  transposes_S512x256_S256x512_1_0 : S512x256.Transposes [1, 0] S256x512
  bcast_S512_S1x512_1 : S512.BroadcastsInDim S1x512 (![1] : Fin 1 → Fin S1x512.rank)
  bcast_S1x512_S131072x512_0_1 : S1x512.BroadcastsInDim S131072x512 (![0, 1] : Fin 2 → Fin S131072x512.rank)
  slices_S131072x512_S131072x128_0_0 : S131072x512.Slices ![0, 0] S131072x128
  slices_S131072x512_S131072x128_0_128 : S131072x512.Slices ![0, 128] S131072x128
  slices_S131072x512_S131072x128_0_256 : S131072x512.Slices ![0, 256] S131072x128
  slices_S131072x512_S131072x128_0_384 : S131072x512.Slices ![0, 384] S131072x128
  bcast_S_S131072x128 : S_.BroadcastsInDim S131072x128 (![] : Fin 0 → Fin S131072x128.rank)
  transposes_S128x128_S128x128_1_0 : S128x128.Transposes [1, 0] S128x128
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  dot_S131072x256_S256x512_S131072x512_1_0_0_1_n_n_wf : DotDims.WF S131072x256 S256x512 S131072x512 [1] [0] [0] [1] [] []
  dot_S131072x128_S128x128_S131072x128_1_0_0_1_n_n_wf : DotDims.WF S131072x128 S128x128 S131072x128 [1] [0] [0] [1] [] []

variable [Facts₀]

def dot_S131072x256_S256x512_S131072x512_1_0_0_1_n_n : DotDims S131072x256 S256x512 S131072x512 where
  lhsContracting := [1]
  rhsContracting := [0]
  lhsNonContracting := [0]
  rhsNonContracting := [1]
  lhsBatch := []
  rhsBatch := []
  wf := dot_S131072x256_S256x512_S131072x512_1_0_0_1_n_n_wf
def dot_S131072x128_S128x128_S131072x128_1_0_0_1_n_n : DotDims S131072x128 S128x128 S131072x128 where
  lhsContracting := [1]
  rhsContracting := [0]
  lhsNonContracting := [0]
  rhsNonContracting := [1]
  lhsBatch := []
  rhsBatch := []
  wf := dot_S131072x128_S128x128_S131072x128_1_0_0_1_n_n_wf

class Facts : Prop extends Facts₀ where

variable [Facts]
-- ==== Proof.FrameK.lean ====
/-
  The run of the program around its one kernel launch, and the frame.

  The program first rearranges the small arguments on the host — the four gate weight matrices stacked and transposed,
  the transposed matrix cut into the half that meets the hidden state and the half that meets the input, the four gate
  biases stacked into one row, the output weights transposed, the output bias as a row — and then launches the kernel over
  64 grid points.  Point `t` is handed rows `2048·t … 2048·t + 2047` of the three batch arrays and the five small arrays
  whole, and writes rows `2048·t …` of the three results.

  Proved here, at any float instance: what the body leaves in each result's staging buffer at a point, as a function of the
  blocks it was handed (`outO`, `outH`, `outC`: one whole-block store each, so the buffer is the stored value); that the
  body run on those buffers terminates without a fault and leaves exactly that (`sound_kernel`); the launch's proof data
  (`dats`); and from the library's launch theorem the run (`run_main`): every weakly fair execution terminates, every
  result array is what the write-backs of the per-point values assemble, every other array is as the launch found it.
  None of the host operations writes an argument array, so the arguments end as they started (`frame`).
-/
import proofs.«161597_j18116172055220_1_alg».proof.Proof.Gen.Kernel.Launch
import proofs.«161597_j18116172055220_1_alg».proof.Proof.Gen.Kernel.Skeleton
import proofs.«161597_j18116172055220_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen Cert.Kernel.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the launch -/

/-- A core's buffers when the kernel is launched: the launch memory after the eight host operations. -/
abbrev V (c : Dev nD) (b : Ref sig .tc) : Buf (Elt F) ((c : Thread nD τ).loc b) :=
  StableHlo.after hostOps0 (fun b => m (c, b)) b

/-- No host operation allocates a buffer. -/
theorem hostOps0_fresh : (hostOps0 : List (HloOp τ sig (Elt F))).Forall fun op => op.fresh = ∅ := by
  simp only [List.Forall]; repeat' constructor

/-- The program is its host operations followed by the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-! ## The blocks a point is handed -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input's staging buffer holds its block at every point, whether the block was fetched there or was already there
    (the small arrays are fetched once; their block index never moves). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame from a run -/

/-- From a run that ends with every array no launch window writes as the launch found it, and every input window's
    array unchanged: the thirteen argument arrays end as they started. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c)⟩) h

/-! ## What the body stores -/

/-- The whole-buffer rectangles the body loads and stores through. -/
abbrev rA : Rect S2048x128 := Rect.unit (s := S2048x128) ![0, 0] S2048x128.size Facts₀.inb_S2048x128_S2048x128_0_0
abbrev rB : Rect S128x512 := Rect.unit (s := S128x512) ![0, 0] S128x512.size Facts₀.inb_S128x512_S128x512_0_0
abbrev rC : Rect S1x512 := Rect.unit (s := S1x512) ![0, 0] S1x512.size Facts₀.inb_S1x512_S1x512_0_0
abbrev rD : Rect S128x128 := Rect.unit (s := S128x128) ![0, 0] S128x128.size Facts₀.inb_S128x128_S128x128_0_0
abbrev rE : Rect S1x128 := Rect.unit (s := S1x128) ![0, 0] S1x128.size Facts₀.inb_S1x128_S1x128_0_0

/-- The output block: the linear layer of the new hidden state, one store of the whole block. -/
def outO (x0 x1 x2 : Vec F S2048x128 .f32) (x3 x4 : Vec F S128x512 .f32) (x5 : Vec F S1x512 .f32) (x6 : Vec F S128x128 .f32) (x7 : Vec F S1x128 .f32) : Vec F S2048x128 .f32 :=
  View.canon [⟨rA, k0_pay4 (View.ld x1 rA) (View.ld x0 rA) (View.ld x3 rB) (View.ld x4 rB) (View.ld x5 rC) (View.ld x2 rA) (View.ld x6 rD) (View.ld x7 rE)⟩]
/-- The new hidden state's block. -/
def outH (x0 x1 x2 : Vec F S2048x128 .f32) (x3 x4 : Vec F S128x512 .f32) (x5 : Vec F S1x512 .f32) (x6 : Vec F S128x128 .f32) (x7 : Vec F S1x128 .f32) : Vec F S2048x128 .f32 :=
  View.canon [⟨rA, k0_pay3 (View.ld x1 rA) (View.ld x0 rA) (View.ld x3 rB) (View.ld x4 rB) (View.ld x5 rC) (View.ld x2 rA)⟩]
/-- The new cell state's block. -/
def outC (x0 x1 x2 : Vec F S2048x128 .f32) (x3 x4 : Vec F S128x512 .f32) (x5 : Vec F S1x512 .f32) (x6 : Vec F S128x128 .f32) (x7 : Vec F S1x128 .f32) : Vec F S2048x128 .f32 :=
  View.canon [⟨rA, k0_pay2 (View.ld x1 rA) (View.ld x0 rA) (View.ld x3 rB) (View.ld x4 rB) (View.ld x5 rC) (View.ld x2 rA)⟩]

/-- One store through the whole-buffer rectangle covers the buffer. -/
theorem coverA (p0 : Vec F S2048x128 .f32) (y : S2048x128.Idx) :
    ∃ pc ∈ ([⟨rA, p0⟩] : List (View.Piece (Elt F) S2048x128 .f32)), y ∈ pc.1.set :=
  View.cover_of_tiled [⟨rA, p0⟩] S2048x128.size (by rfl) y

/-! ## The body's run -/

set_option maxHeartbeats 1000000 in
/-- The body on whole staging buffers — the eight inputs' at contents `x0 … x7`, the three results' at anything —
    terminates without a fault, leaves the inputs as they were and each result's buffer at its stored value. -/
theorem sound_kernel (c : Dev nD) (E : Set ℕ) (i : grid0.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S1x512 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole)
    (x0 x1 x2 : Vec F S2048x128 .f32) (x3 x4 : Vec F S128x512 .f32) (x5 : Vec F S1x512 .f32) (x6 : Vec F S128x128 .f32) (x7 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (outO x0 x1 x2 x3 x4 x5 x6 x7)
            ∗ owns (c : Thread nD τ) arg10 fullShare (outH x0 x1 x2 x3 x4 x5 x6 x7)
            ∗ owns (c : Thread nD τ) arg11 fullShare (outC x0 x1 x2 x3 x4 x5 x6 x7)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8 arg9 harg9 arg10 harg10 arg11 harg11) K := by
  simp only [cc0__lstm_kernel_eq_skeleton]; unfold cc0__lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    try dsimp only
    exact View.read_writes_eq_canon _ _ _ (coverA _)
  isplitl [H9]
  · iexists _; isplitr
    swap; · iexact H9
    ipureintro
    try dsimp only
    exact View.read_writes_eq_canon _ _ _ (coverA _)
  iexists _; isplitr
  swap; · iexact H10
  ipureintro
  try dsimp only
  exact View.read_writes_eq_canon _ _ _ (coverA _)

/-! ## The launch's proof data -/

/-- On core `c`: the arrays as the launch finds them; after the body at point `t` each input's buffer still at its
    block and each result's at its stored value of the point's blocks; nothing else of the core's is touched. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outO (iblk m c 0 t) (iblk m c 1 t) (iblk m c 2 t) (iblk m c 3 t) (iblk m c 4 t) (iblk m c 5 t) (iblk m c 6 t) (iblk m c 7 t)
    | ⟨9, _⟩ => outH (iblk m c 0 t) (iblk m c 1 t) (iblk m c 2 t) (iblk m c 3 t) (iblk m c 4 t) (iblk m c 5 t) (iblk m c 6 t) (iblk m c 7 t)
    | ⟨10, _⟩ => outC (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outO (iblk m c 0 t) (iblk m c 1 t) (iblk m c 2 t) (iblk m c 3 t) (iblk m c 4 t) (iblk m c 5 t) (iblk m c 6 t) (iblk m c 7 t) := by dsimp only [dats]
theorem after0_9 (c : Dev nD) (t : Fin cfg0.N) : (dats m 0 c).after 9 t = outH (iblk m c 0 t) (iblk m c 1 t) (iblk m c 2 t) (iblk m c 3 t) (iblk m c 4 t) (iblk m c 5 t) (iblk m c 6 t) (iblk m c 7 t) := by dsimp only [dats]
theorem after0_10 (c : Dev nD) (t : Fin cfg0.N) : (dats m 0 c).after 10 t = outC (iblk m c 0 t) (iblk m c 1 t) (iblk m c 2 t) (iblk m c 3 t) (iblk m c 4 t) (iblk m c 5 t) (iblk m c 6 t) (iblk m c 7 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body at a grid point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

set_option maxHeartbeats 1000000 in
/-- The body at any point: the inputs' buffers hold their blocks, so `sound_kernel` applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The launch theorem's obligation on the body, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates without a fault; at the end every array the launch's windows
    stage holds what the write-backs of the per-point values assemble, every other buffer what the launch found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program terminates, faults nowhere, and leaves its thirteen argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

end Cert.Kernel.Fr

end
-- ==== Proof.FrameKI.lean ====
/-
  The run of the program around its one kernel launch, and the frame.

  The program first rearranges the small arguments on the host — the four gate weight matrices stacked and transposed,
  the transposed matrix cut into the half that meets the hidden state and the half that meets the input, the four gate
  biases stacked into one row, the output weights transposed, the output bias as a row — and then launches the kernel over
  64 grid points.  Point `t` is handed rows `2048·t … 2048·t + 2047` of the three batch arrays and the five small arrays
  whole, and writes rows `2048·t …` of the three results.

  Proved here, at any float instance: what the body leaves in each result's staging buffer at a point, as a function of the
  blocks it was handed (`outO`, `outH`, `outC`: one whole-block store each, so the buffer is the stored value); that the
  body run on those buffers terminates without a fault and leaves exactly that (`sound_kernel`); the launch's proof data
  (`dats`); and from the library's launch theorem the run (`run_main`): every weakly fair execution terminates, every
  result array is what the write-backs of the per-point values assemble, every other array is as the launch found it.
  None of the host operations writes an argument array, so the arguments end as they started (`frame`).
-/
import proofs.«161597_j18116172055220_1_alg».proof.Proof.Gen.KernelIdeal.Launch
import proofs.«161597_j18116172055220_1_alg».proof.Proof.Gen.KernelIdeal.Skeleton
import proofs.«161597_j18116172055220_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen Cert.KernelIdeal.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the launch -/

/-- A core's buffers when the kernel is launched: the launch memory after the eight host operations. -/
abbrev V (c : Dev nD) (b : Ref sig .tc) : Buf (Elt F) ((c : Thread nD τ).loc b) :=
  StableHlo.after hostOps0 (fun b => m (c, b)) b

/-- No host operation allocates a buffer. -/
theorem hostOps0_fresh : (hostOps0 : List (HloOp τ sig (Elt F))).Forall fun op => op.fresh = ∅ := by
  simp only [List.Forall]; repeat' constructor

/-- The program is its host operations followed by the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-! ## The blocks a point is handed -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input's staging buffer holds its block at every point, whether the block was fetched there or was already there
    (the small arrays are fetched once; their block index never moves). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame from a run -/

/-- From a run that ends with every array no launch window writes as the launch found it, and every input window's
    array unchanged: the thirteen argument arrays end as they started. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c)⟩) h

/-! ## What the body stores -/

/-- The whole-buffer rectangles the body loads and stores through. -/
abbrev rA : Rect S2048x128 := Rect.unit (s := S2048x128) ![0, 0] S2048x128.size Facts₀.inb_S2048x128_S2048x128_0_0
abbrev rB : Rect S128x512 := Rect.unit (s := S128x512) ![0, 0] S128x512.size Facts₀.inb_S128x512_S128x512_0_0
abbrev rC : Rect S1x512 := Rect.unit (s := S1x512) ![0, 0] S1x512.size Facts₀.inb_S1x512_S1x512_0_0
abbrev rD : Rect S128x128 := Rect.unit (s := S128x128) ![0, 0] S128x128.size Facts₀.inb_S128x128_S128x128_0_0
abbrev rE : Rect S1x128 := Rect.unit (s := S1x128) ![0, 0] S1x128.size Facts₀.inb_S1x128_S1x128_0_0

/-- The output block: the linear layer of the new hidden state, one store of the whole block. -/
def outO (x0 x1 x2 : Vec F S2048x128 .f32) (x3 x4 : Vec F S128x512 .f32) (x5 : Vec F S1x512 .f32) (x6 : Vec F S128x128 .f32) (x7 : Vec F S1x128 .f32) : Vec F S2048x128 .f32 :=
  View.canon [⟨rA, k0_pay4 (View.ld x1 rA) (View.ld x0 rA) (View.ld x3 rB) (View.ld x4 rB) (View.ld x5 rC) (View.ld x2 rA) (View.ld x6 rD) (View.ld x7 rE)⟩]
/-- The new hidden state's block. -/
def outH (x0 x1 x2 : Vec F S2048x128 .f32) (x3 x4 : Vec F S128x512 .f32) (x5 : Vec F S1x512 .f32) (x6 : Vec F S128x128 .f32) (x7 : Vec F S1x128 .f32) : Vec F S2048x128 .f32 :=
  View.canon [⟨rA, k0_pay3 (View.ld x1 rA) (View.ld x0 rA) (View.ld x3 rB) (View.ld x4 rB) (View.ld x5 rC) (View.ld x2 rA)⟩]
/-- The new cell state's block. -/
def outC (x0 x1 x2 : Vec F S2048x128 .f32) (x3 x4 : Vec F S128x512 .f32) (x5 : Vec F S1x512 .f32) (x6 : Vec F S128x128 .f32) (x7 : Vec F S1x128 .f32) : Vec F S2048x128 .f32 :=
  View.canon [⟨rA, k0_pay2 (View.ld x1 rA) (View.ld x0 rA) (View.ld x3 rB) (View.ld x4 rB) (View.ld x5 rC) (View.ld x2 rA)⟩]

/-- One store through the whole-buffer rectangle covers the buffer. -/
theorem coverA (p0 : Vec F S2048x128 .f32) (y : S2048x128.Idx) :
    ∃ pc ∈ ([⟨rA, p0⟩] : List (View.Piece (Elt F) S2048x128 .f32)), y ∈ pc.1.set :=
  View.cover_of_tiled [⟨rA, p0⟩] S2048x128.size (by rfl) y

/-! ## The body's run -/

set_option maxHeartbeats 1000000 in
/-- The body on whole staging buffers — the eight inputs' at contents `x0 … x7`, the three results' at anything —
    terminates without a fault, leaves the inputs as they were and each result's buffer at its stored value. -/
theorem sound_kernel (c : Dev nD) (E : Set ℕ) (i : grid0.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S1x512 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole)
    (x0 x1 x2 : Vec F S2048x128 .f32) (x3 x4 : Vec F S128x512 .f32) (x5 : Vec F S1x512 .f32) (x6 : Vec F S128x128 .f32) (x7 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (outO x0 x1 x2 x3 x4 x5 x6 x7)
            ∗ owns (c : Thread nD τ) arg10 fullShare (outH x0 x1 x2 x3 x4 x5 x6 x7)
            ∗ owns (c : Thread nD τ) arg11 fullShare (outC x0 x1 x2 x3 x4 x5 x6 x7)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8 arg9 harg9 arg10 harg10 arg11 harg11) K := by
  simp only [cc0__lstm_kernel_eq_skeleton]; unfold cc0__lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    try dsimp only
    exact View.read_writes_eq_canon _ _ _ (coverA _)
  isplitl [H9]
  · iexists _; isplitr
    swap; · iexact H9
    ipureintro
    try dsimp only
    exact View.read_writes_eq_canon _ _ _ (coverA _)
  iexists _; isplitr
  swap; · iexact H10
  ipureintro
  try dsimp only
  exact View.read_writes_eq_canon _ _ _ (coverA _)

/-! ## The launch's proof data -/

/-- On core `c`: the arrays as the launch finds them; after the body at point `t` each input's buffer still at its
    block and each result's at its stored value of the point's blocks; nothing else of the core's is touched. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outO (iblk m c 0 t) (iblk m c 1 t) (iblk m c 2 t) (iblk m c 3 t) (iblk m c 4 t) (iblk m c 5 t) (iblk m c 6 t) (iblk m c 7 t)
    | ⟨9, _⟩ => outH (iblk m c 0 t) (iblk m c 1 t) (iblk m c 2 t) (iblk m c 3 t) (iblk m c 4 t) (iblk m c 5 t) (iblk m c 6 t) (iblk m c 7 t)
    | ⟨10, _⟩ => outC (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outO (iblk m c 0 t) (iblk m c 1 t) (iblk m c 2 t) (iblk m c 3 t) (iblk m c 4 t) (iblk m c 5 t) (iblk m c 6 t) (iblk m c 7 t) := by dsimp only [dats]
theorem after0_9 (c : Dev nD) (t : Fin cfg0.N) : (dats m 0 c).after 9 t = outH (iblk m c 0 t) (iblk m c 1 t) (iblk m c 2 t) (iblk m c 3 t) (iblk m c 4 t) (iblk m c 5 t) (iblk m c 6 t) (iblk m c 7 t) := by dsimp only [dats]
theorem after0_10 (c : Dev nD) (t : Fin cfg0.N) : (dats m 0 c).after 10 t = outC (iblk m c 0 t) (iblk m c 1 t) (iblk m c 2 t) (iblk m c 3 t) (iblk m c 4 t) (iblk m c 5 t) (iblk m c 6 t) (iblk m c 7 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body at a grid point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

set_option maxHeartbeats 1000000 in
/-- The body at any point: the inputs' buffers hold their blocks, so `sound_kernel` applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The launch theorem's obligation on the body, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates without a fault; at the end every array the launch's windows
    stage holds what the write-backs of the per-point values assemble, every other buffer what the launch found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program terminates, faults nowhere, and leaves its thirteen argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

end Cert.KernelIdeal.Fr

end
-- ==== Proof.BlocksKI.lean ====
/-
  Where a grid point's blocks sit in the arrays.

  The launch cuts the batch of 131072 rows into 64 blocks of 2048 rows.  At point `t` the three batch inputs' windows and
  the three results' windows are all at block index `(t, 0)`: entry `(p, q)` of a block is entry `(2048·t + p, q)` of
  its array.  The five small arrays' windows are at block index `(0, 0)` at every point and their block is the whole
  array.  Every entry `(r, q)` of a result array lies in the block of point `r / 2048`, which is written back: the 64
  write-backs cover each result array.
-/
import proofs.«161597_j18116172055220_1_alg».proof.Proof.FrameKI
import Idealize.ShloMosaic.Lib.Pipeline.Value
import Idealize.ShloMosaic.Lib.ValueIdx

set_option maxRecDepth 16384

noncomputable section

namespace Cert.KernelIdeal.Blk

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ)

/-- The zero offsets of the whole-buffer rectangles, as a constant function. -/
theorem hz : (![0, 0] : Fin 2 → Nat) = fun _ => 0 := funext fun a => by fin_cases a <;> rfl

/-! ## The windows' block indices over the grid -/

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem idx8 : ∀ t : Fin cfg0.N, win0_8.index t (0 : Fin 2) = t.val ∧ win0_8.index t (1 : Fin 2) = 0 :=
  (by decide +kernel : ∀ t : Fin grid0.N, win0_8.index t (0 : Fin 2) = t.val ∧ win0_8.index t (1 : Fin 2) = 0)
theorem idx9 : ∀ t : Fin cfg0.N, win0_9.index t (0 : Fin 2) = t.val ∧ win0_9.index t (1 : Fin 2) = 0 :=
  (by decide +kernel : ∀ t : Fin grid0.N, win0_9.index t (0 : Fin 2) = t.val ∧ win0_9.index t (1 : Fin 2) = 0)
theorem idx10 : ∀ t : Fin cfg0.N, win0_10.index t (0 : Fin 2) = t.val ∧ win0_10.index t (1 : Fin 2) = 0 :=
  (by decide +kernel : ∀ t : Fin grid0.N, win0_10.index t (0 : Fin 2) = t.val ∧ win0_10.index t (1 : Fin 2) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)

/-! ## The input blocks, read -/

/-- Entry `(p, q)` of batch window 0's block at point `t` is entry `(2048·t + p, q)` of its argument array. -/
theorem blk0 (c : Dev nD) (t : Fin cfg0.N) (j : S2048x128.Idx) (i : S131072x128.Idx)
    (hi0 : (i 0).val = 2048 * t.val + (j 0).val) (hi1 : (i 1).val = (j 1).val) :
    iblk m c 0 t j = m ((c : Thread nD τ).loc main_arg0) i := by
  show V m c main_arg0 (((cfg0.win 0).blk t).view.emb j) = _
  rw [V_main_arg0]
  refine congrArg _ ?_
  funext a; apply Fin.ext
  obtain ⟨e0, e1⟩ := idx0 t
  match a with
  | ⟨0, _⟩ => show win0_0.index t (0 : Fin 2) * 2048 + 1 * (j 0).val = (i 0).val; rw [e0, hi0]; omega
  | ⟨1, _⟩ => show win0_0.index t (1 : Fin 2) * 128 + 1 * (j 1).val = (i 1).val; rw [e1, hi1]; omega
/-- Entry `(p, q)` of batch window 1's block at point `t` is entry `(2048·t + p, q)` of its argument array. -/
theorem blk1 (c : Dev nD) (t : Fin cfg0.N) (j : S2048x128.Idx) (i : S131072x128.Idx)
    (hi0 : (i 0).val = 2048 * t.val + (j 0).val) (hi1 : (i 1).val = (j 1).val) :
    iblk m c 1 t j = m ((c : Thread nD τ).loc main_arg1) i := by
  show V m c main_arg1 (((cfg0.win 1).blk t).view.emb j) = _
  rw [V_main_arg1]
  refine congrArg _ ?_
  funext a; apply Fin.ext
  obtain ⟨e0, e1⟩ := idx1 t
  match a with
  | ⟨0, _⟩ => show win0_1.index t (0 : Fin 2) * 2048 + 1 * (j 0).val = (i 0).val; rw [e0, hi0]; omega
  | ⟨1, _⟩ => show win0_1.index t (1 : Fin 2) * 128 + 1 * (j 1).val = (i 1).val; rw [e1, hi1]; omega
/-- Entry `(p, q)` of batch window 2's block at point `t` is entry `(2048·t + p, q)` of its argument array. -/
theorem blk2 (c : Dev nD) (t : Fin cfg0.N) (j : S2048x128.Idx) (i : S131072x128.Idx)
    (hi0 : (i 0).val = 2048 * t.val + (j 0).val) (hi1 : (i 1).val = (j 1).val) :
    iblk m c 2 t j = m ((c : Thread nD τ).loc main_arg2) i := by
  show V m c main_arg2 (((cfg0.win 2).blk t).view.emb j) = _
  rw [V_main_arg2]
  refine congrArg _ ?_
  funext a; apply Fin.ext
  obtain ⟨e0, e1⟩ := idx2 t
  match a with
  | ⟨0, _⟩ => show win0_2.index t (0 : Fin 2) * 2048 + 1 * (j 0).val = (i 0).val; rw [e0, hi0]; omega
  | ⟨1, _⟩ => show win0_2.index t (1 : Fin 2) * 128 + 1 * (j 1).val = (i 1).val; rw [e1, hi1]; omega

/-- Window 3's block is its whole array at every point. -/
theorem blk3 (c : Dev nD) (t : Fin cfg0.N) : (iblk m c 3 t : S128x512.Idx → Elt F .f32) = V m c main_v3 := by
  funext y
  show V m c main_v3 (((cfg0.win 3).blk t).view.emb y) = V m c main_v3 y
  refine congrArg _ ?_
  funext a; apply Fin.ext
  obtain ⟨e0, e1⟩ := idx3 t
  match a with
  | ⟨0, _⟩ => show win0_3.index t (0 : Fin 2) * 128 + 1 * (y 0).val = (y 0).val; rw [e0]; omega
  | ⟨1, _⟩ => show win0_3.index t (1 : Fin 2) * 512 + 1 * (y 1).val = (y 1).val; rw [e1]; omega
/-- Window 4's block is its whole array at every point. -/
theorem blk4 (c : Dev nD) (t : Fin cfg0.N) : (iblk m c 4 t : S128x512.Idx → Elt F .f32) = V m c main_v4 := by
  funext y
  show V m c main_v4 (((cfg0.win 4).blk t).view.emb y) = V m c main_v4 y
  refine congrArg _ ?_
  funext a; apply Fin.ext
  obtain ⟨e0, e1⟩ := idx4 t
  match a with
  | ⟨0, _⟩ => show win0_4.index t (0 : Fin 2) * 128 + 1 * (y 0).val = (y 0).val; rw [e0]; omega
  | ⟨1, _⟩ => show win0_4.index t (1 : Fin 2) * 512 + 1 * (y 1).val = (y 1).val; rw [e1]; omega
/-- Window 5's block is its whole array at every point. -/
theorem blk5 (c : Dev nD) (t : Fin cfg0.N) : (iblk m c 5 t : S1x512.Idx → Elt F .f32) = V m c main_v5 := by
  funext y
  show V m c main_v5 (((cfg0.win 5).blk t).view.emb y) = V m c main_v5 y
  refine congrArg _ ?_
  funext a; apply Fin.ext
  obtain ⟨e0, e1⟩ := idx5 t
  match a with
  | ⟨0, _⟩ => show win0_5.index t (0 : Fin 2) * 1 + 1 * (y 0).val = (y 0).val; rw [e0]; omega
  | ⟨1, _⟩ => show win0_5.index t (1 : Fin 2) * 512 + 1 * (y 1).val = (y 1).val; rw [e1]; omega
/-- Window 6's block is its whole array at every point. -/
theorem blk6 (c : Dev nD) (t : Fin cfg0.N) : (iblk m c 6 t : S128x128.Idx → Elt F .f32) = V m c main_v6 := by
  funext y
  show V m c main_v6 (((cfg0.win 6).blk t).view.emb y) = V m c main_v6 y
  refine congrArg _ ?_
  funext a; apply Fin.ext
  obtain ⟨e0, e1⟩ := idx6 t
  match a with
  | ⟨0, _⟩ => show win0_6.index t (0 : Fin 2) * 128 + 1 * (y 0).val = (y 0).val; rw [e0]; omega
  | ⟨1, _⟩ => show win0_6.index t (1 : Fin 2) * 128 + 1 * (y 1).val = (y 1).val; rw [e1]; omega
/-- Window 7's block is its whole array at every point. -/
theorem blk7 (c : Dev nD) (t : Fin cfg0.N) : (iblk m c 7 t : S1x128.Idx → Elt F .f32) = V m c main_v7 := by
  funext y
  show V m c main_v7 (((cfg0.win 7).blk t).view.emb y) = V m c main_v7 y
  refine congrArg _ ?_
  funext a; apply Fin.ext
  obtain ⟨e0, e1⟩ := idx7 t
  match a with
  | ⟨0, _⟩ => show win0_7.index t (0 : Fin 2) * 1 + 1 * (y 0).val = (y 0).val; rw [e0]; omega
  | ⟨1, _⟩ => show win0_7.index t (1 : Fin 2) * 128 + 1 * (y 1).val = (y 1).val; rw [e1]; omega

/-! ## The result blocks: where they land, and that they cover -/

/-- Entry `(p, q)` of result window 8's block at point `t` lands at entry `(2048·t + p, q)` of its array. -/
theorem emb8 (t : Fin cfg0.N) (j : S2048x128.Idx) :
    ((((cfg0.win 8).blk t).view.emb j) 0).val = 2048 * t.val + (j 0).val ∧ ((((cfg0.win 8).blk t).view.emb j) 1).val = (j 1).val := by
  obtain ⟨e0, e1⟩ := idx8 t
  constructor
  · show win0_8.index t (0 : Fin 2) * 2048 + 1 * (j 0).val = _; rw [e0]; omega
  · show win0_8.index t (1 : Fin 2) * 128 + 1 * (j 1).val = _; rw [e1]; omega

/-- An entry of the array is in point `t`'s block iff each coordinate is in the block's range on its axis. -/
theorem mem_blk8 (t : Fin cfg0.N) (i : S131072x128.Idx) :
    i ∈ ((cfg0.win 8).blk t).view.set ↔ ∀ a : Fin 2, win0_8.index t a * S2048x128.size a ≤ (i a).val ∧ (i a).val < win0_8.index t a * S2048x128.size a + S2048x128.size a := by
  show i ∈ ((View.whole main_v8_0).slice (win0_8.rect t)).set ↔ _
  rw [View.set_slice_whole, Rect.mem_set_unit]
  exact Iff.rfl

/-- Every entry of the result array is written back by the point that owns its row: point `row / 2048`. -/
theorem cover8 (i : S131072x128.Idx) : ∃ t : Fin cfg0.N, (cfg0.win 8).flush t = true ∧ i ∈ ((cfg0.win 8).blk t).view.set := by
  have hi0 : (i 0).val < 131072 := (i 0).isLt
  have hi1 : (i 1).val < 128 := (i 1).isLt
  have hN : cfg0.N = 64 := N_0
  have hlt : (i 0).val / 2048 < cfg0.N := by rw [hN]; omega
  refine ⟨⟨(i 0).val / 2048, hlt⟩, flush0_8 _, ?_⟩
  rw [mem_blk8]
  obtain ⟨e0, e1⟩ := idx8 ⟨(i 0).val / 2048, hlt⟩
  have e0' : win0_8.index ⟨(i 0).val / 2048, hlt⟩ (0 : Fin 2) = (i 0).val / 2048 := e0
  intro a
  match a with
  | ⟨0, _⟩ => show win0_8.index ⟨(i 0).val / 2048, hlt⟩ (0 : Fin 2) * 2048 ≤ (i 0).val ∧ (i 0).val < win0_8.index ⟨(i 0).val / 2048, hlt⟩ (0 : Fin 2) * 2048 + 2048; rw [e0']; omega
  | ⟨1, _⟩ => show win0_8.index ⟨(i 0).val / 2048, hlt⟩ (1 : Fin 2) * 128 ≤ (i 1).val ∧ (i 1).val < win0_8.index ⟨(i 0).val / 2048, hlt⟩ (1 : Fin 2) * 128 + 128; rw [e1]; omega

/-- Entry `(p, q)` of result window 9's block at point `t` lands at entry `(2048·t + p, q)` of its array. -/
theorem emb9 (t : Fin cfg0.N) (j : S2048x128.Idx) :
    ((((cfg0.win 9).blk t).view.emb j) 0).val = 2048 * t.val + (j 0).val ∧ ((((cfg0.win 9).blk t).view.emb j) 1).val = (j 1).val := by
  obtain ⟨e0, e1⟩ := idx9 t
  constructor
  · show win0_9.index t (0 : Fin 2) * 2048 + 1 * (j 0).val = _; rw [e0]; omega
  · show win0_9.index t (1 : Fin 2) * 128 + 1 * (j 1).val = _; rw [e1]; omega

/-- An entry of the array is in point `t`'s block iff each coordinate is in the block's range on its axis. -/
theorem mem_blk9 (t : Fin cfg0.N) (i : S131072x128.Idx) :
    i ∈ ((cfg0.win 9).blk t).view.set ↔ ∀ a : Fin 2, win0_9.index t a * S2048x128.size a ≤ (i a).val ∧ (i a).val < win0_9.index t a * S2048x128.size a + S2048x128.size a := by
  show i ∈ ((View.whole main_v8_1).slice (win0_9.rect t)).set ↔ _
  rw [View.set_slice_whole, Rect.mem_set_unit]
  exact Iff.rfl

/-- Every entry of the result array is written back by the point that owns its row: point `row / 2048`. -/
theorem cover9 (i : S131072x128.Idx) : ∃ t : Fin cfg0.N, (cfg0.win 9).flush t = true ∧ i ∈ ((cfg0.win 9).blk t).view.set := by
  have hi0 : (i 0).val < 131072 := (i 0).isLt
  have hi1 : (i 1).val < 128 := (i 1).isLt
  have hN : cfg0.N = 64 := N_0
  have hlt : (i 0).val / 2048 < cfg0.N := by rw [hN]; omega
  refine ⟨⟨(i 0).val / 2048, hlt⟩, flush0_9 _, ?_⟩
  rw [mem_blk9]
  obtain ⟨e0, e1⟩ := idx9 ⟨(i 0).val / 2048, hlt⟩
  have e0' : win0_9.index ⟨(i 0).val / 2048, hlt⟩ (0 : Fin 2) = (i 0).val / 2048 := e0
  intro a
  match a with
  | ⟨0, _⟩ => show win0_9.index ⟨(i 0).val / 2048, hlt⟩ (0 : Fin 2) * 2048 ≤ (i 0).val ∧ (i 0).val < win0_9.index ⟨(i 0).val / 2048, hlt⟩ (0 : Fin 2) * 2048 + 2048; rw [e0']; omega
  | ⟨1, _⟩ => show win0_9.index ⟨(i 0).val / 2048, hlt⟩ (1 : Fin 2) * 128 ≤ (i 1).val ∧ (i 1).val < win0_9.index ⟨(i 0).val / 2048, hlt⟩ (1 : Fin 2) * 128 + 128; rw [e1]; omega

/-- Entry `(p, q)` of result window 10's block at point `t` lands at entry `(2048·t + p, q)` of its array. -/
theorem emb10 (t : Fin cfg0.N) (j : S2048x128.Idx) :
    ((((cfg0.win 10).blk t).view.emb j) 0).val = 2048 * t.val + (j 0).val ∧ ((((cfg0.win 10).blk t).view.emb j) 1).val = (j 1).val := by
  obtain ⟨e0, e1⟩ := idx10 t
  constructor
  · show win0_10.index t (0 : Fin 2) * 2048 + 1 * (j 0).val = _; rw [e0]; omega
  · show win0_10.index t (1 : Fin 2) * 128 + 1 * (j 1).val = _; rw [e1]; omega

/-- An entry of the array is in point `t`'s block iff each coordinate is in the block's range on its axis. -/
theorem mem_blk10 (t : Fin cfg0.N) (i : S131072x128.Idx) :
    i ∈ ((cfg0.win 10).blk t).view.set ↔ ∀ a : Fin 2, win0_10.index t a * S2048x128.size a ≤ (i a).val ∧ (i a).val < win0_10.index t a * S2048x128.size a + S2048x128.size a := by
  show i ∈ ((View.whole main_v8_2).slice (win0_10.rect t)).set ↔ _
  rw [View.set_slice_whole, Rect.mem_set_unit]
  exact Iff.rfl

/-- Every entry of the result array is written back by the point that owns its row: point `row / 2048`. -/
theorem cover10 (i : S131072x128.Idx) : ∃ t : Fin cfg0.N, (cfg0.win 10).flush t = true ∧ i ∈ ((cfg0.win 10).blk t).view.set := by
  have hi0 : (i 0).val < 131072 := (i 0).isLt
  have hi1 : (i 1).val < 128 := (i 1).isLt
  have hN : cfg0.N = 64 := N_0
  have hlt : (i 0).val / 2048 < cfg0.N := by rw [hN]; omega
  refine ⟨⟨(i 0).val / 2048, hlt⟩, flush0_10 _, ?_⟩
  rw [mem_blk10]
  obtain ⟨e0, e1⟩ := idx10 ⟨(i 0).val / 2048, hlt⟩
  have e0' : win0_10.index ⟨(i 0).val / 2048, hlt⟩ (0 : Fin 2) = (i 0).val / 2048 := e0
  intro a
  match a with
  | ⟨0, _⟩ => show win0_10.index ⟨(i 0).val / 2048, hlt⟩ (0 : Fin 2) * 2048 ≤ (i 0).val ∧ (i 0).val < win0_10.index ⟨(i 0).val / 2048, hlt⟩ (0 : Fin 2) * 2048 + 2048; rw [e0']; omega
  | ⟨1, _⟩ => show win0_10.index ⟨(i 0).val / 2048, hlt⟩ (1 : Fin 2) * 128 ≤ (i 1).val ∧ (i 1).val < win0_10.index ⟨(i 0).val / 2048, hlt⟩ (1 : Fin 2) * 128 + 128; rw [e1]; omega

end Cert.KernelIdeal.Blk

end
-- ==== Proof.Spec.lean ====
/-
  The mathematics of one LSTM cell step followed by a linear layer, as functions of a row and a column, over the
  extended reals.  Nothing here mentions a program: the arrays are functions of their index.

  For a batch of `n` rows, inputs `x`, `h` (the previous hidden state) and `ctx` (the previous cell state), each
  `n × 128`; the stacked gate weights, already transposed, cut in the half `Th` (128 × 512) that meets `h` and the half
  `Tx` (128 × 512) that meets `x`; the stacked gate bias `b` (1 × 512); the output weights transposed `Wt` (128 × 128) and
  the output bias `bo` (1 × 128):

    gate r c    = (Σ_k h[r,k] · Th[k,c] + Σ_k x[r,k] · Tx[k,c]) + b[0,c]
    ctxNew r j  = σ(gate r j) · ctx[r,j] + σ(gate r (128+j)) · tanh(gate r (256+j))
    hidNew r j  = σ(gate r (384+j)) · tanh(ctxNew r j)
    out r j     = Σ_k hidNew r k · Wt[k,j] + bo[0,j]

  with σ the logistic function `1 / (1 + e^{-t})` extended to ±∞ and tanh extended to ±∞.  Each value at row `r`
  depends on row `r` of `x`, `h`, `ctx` only (the `_congr` lemmas): a block of rows computes the rows of the whole.
-/
import Idealize.ShloMosaic.PureOps.Ideal
import Idealize.ShloMosaic.Lib.ValueIdx

noncomputable section

namespace Cert.Lstm

open Idealize.ShloMosaic Idealize.ShloMosaic.ValueIdx

/-- An `a × b` matrix of extended reals, as a function of its index. -/
abbrev Mat (a b : Nat) : Type := (⟨2, ![a, b]⟩ : Shape).Idx → EReal
/-- A vector of `a` extended reals, as a function of its index. -/
abbrev Row (a : Nat) : Type := (⟨1, ![a]⟩ : Shape).Idx → EReal

/-- The matrix whose entry at row `p`, column `q` is `f p q`. -/
def mk2 {a b : Nat} (f : Fin a → Fin b → EReal) : Mat a b :=
  fun i => f ⟨(i 0).val, idx2_lt0 i⟩ ⟨(i 1).val, idx2_lt1 i⟩

theorem mk2_ix2 {a b : Nat} (f : Fin a → Fin b → EReal) (p : Fin a) (q : Fin b) : mk2 f (ix2 p q) = f p q := rfl

/-- Column `o + j` of the 512 gate columns: gate block `o / 128`, unit `j`. -/
abbrev col (o : Nat) (ho : o + 128 ≤ 512) (j : Fin 128) : Fin 512 := ⟨o + j.val, by omega⟩

/-- Rows `0 … 127` of a 256-row matrix. -/
def topHalf (T : Mat 256 512) : Mat 128 512 := mk2 fun k c => T (ix2 (⟨k.val, by omega⟩ : Fin 256) c)
/-- Rows `128 … 255` of a 256-row matrix. -/
def botHalf (T : Mat 256 512) : Mat 128 512 := mk2 fun k c => T (ix2 (⟨128 + k.val, by omega⟩ : Fin 256) c)
/-- A vector as a one-row matrix. -/
def rowOf {a : Nat} (v : Row a) : Mat 1 a := mk2 fun _ c => v (ix1 c)
/-- The transpose. -/
def transp {a b : Nat} (W : Mat a b) : Mat b a := mk2 fun k j => W (ix2 j k)

section Cell

variable {n : Nat} (x h ctx : Mat n 128) (Th Tx : Mat 128 512) (b : Mat 1 512) (Wt : Mat 128 128) (bo : Mat 1 128)

/-- The four gates' pre-activations, 512 columns: the hidden half's product plus the input half's, plus the bias. -/
def gate (r : Fin n) (c : Fin 512) : EReal :=
  ((∑ k : Fin 128, h (ix2 r k) * Th (ix2 k c)) + (∑ k : Fin 128, x (ix2 r k) * Tx (ix2 k c))) + b (ix2 (0 : Fin 1) c)

/-- The new cell state: forget gate times the old state plus input gate times the candidate. -/
def ctxNew (r : Fin n) (j : Fin 128) : EReal :=
  Ideal.logistic (gate x h Th Tx b r (col 0 (by omega) j)) * ctx (ix2 r j)
    + Ideal.logistic (gate x h Th Tx b r (col 128 (by omega) j)) * Ideal.tanh (gate x h Th Tx b r (col 256 (by omega) j))

/-- The new hidden state: output gate times tanh of the new cell state. -/
def hidNew (r : Fin n) (j : Fin 128) : EReal :=
  Ideal.logistic (gate x h Th Tx b r (col 384 (by omega) j)) * Ideal.tanh (ctxNew x h ctx Th Tx b r j)

/-- The linear layer on the new hidden state. -/
def out (r : Fin n) (j : Fin 128) : EReal :=
  (∑ k : Fin 128, hidNew x h ctx Th Tx b r k * Wt (ix2 k j)) + bo (ix2 (0 : Fin 1) j)

end Cell

section Local

variable {n n' : Nat} (x h ctx : Mat n 128) (x' h' ctx' : Mat n' 128) (Th Tx : Mat 128 512) (b : Mat 1 512)
  (Wt : Mat 128 128) (bo : Mat 1 128) (r : Fin n) (r' : Fin n')

/-- The gates at a row depend on that row of `x` and `h` only. -/
theorem gate_congr (hx : ∀ k, x' (ix2 r' k) = x (ix2 r k)) (hh : ∀ k, h' (ix2 r' k) = h (ix2 r k)) (c : Fin 512) :
    gate x' h' Th Tx b r' c = gate x h Th Tx b r c := by
  unfold gate; simp only [hx, hh]

theorem ctxNew_congr (hx : ∀ k, x' (ix2 r' k) = x (ix2 r k)) (hh : ∀ k, h' (ix2 r' k) = h (ix2 r k))
    (hc : ∀ k, ctx' (ix2 r' k) = ctx (ix2 r k)) (j : Fin 128) :
    ctxNew x' h' ctx' Th Tx b r' j = ctxNew x h ctx Th Tx b r j := by
  unfold ctxNew; simp only [gate_congr x h x' h' Th Tx b r r' hx hh, hc]

theorem hidNew_congr (hx : ∀ k, x' (ix2 r' k) = x (ix2 r k)) (hh : ∀ k, h' (ix2 r' k) = h (ix2 r k))
    (hc : ∀ k, ctx' (ix2 r' k) = ctx (ix2 r k)) (j : Fin 128) :
    hidNew x' h' ctx' Th Tx b r' j = hidNew x h ctx Th Tx b r j := by
  unfold hidNew; simp only [gate_congr x h x' h' Th Tx b r r' hx hh, ctxNew_congr x h ctx x' h' ctx' Th Tx b r r' hx hh hc]

theorem out_congr (hx : ∀ k, x' (ix2 r' k) = x (ix2 r k)) (hh : ∀ k, h' (ix2 r' k) = h (ix2 r k))
    (hc : ∀ k, ctx' (ix2 r' k) = ctx (ix2 r k)) (j : Fin 128) :
    out x' h' ctx' Th Tx b Wt bo r' j = out x h ctx Th Tx b Wt bo r j := by
  unfold out; simp only [hidNew_congr x h ctx x' h' ctx' Th Tx b r r' hx hh hc]

end Local

/-! ## The three results over the whole batch, from the arguments as the programs receive them -/

section Whole

variable (x h ctx : Mat 131072 128) (T : Mat 256 512) (b4 : Row 512) (Wfc : Mat 128 128) (bfc : Row 128)

/-- The new cell state over the whole batch, from the stacked transposed gate weights `T` (256 × 512: rows 0–127 meet
    `h`, rows 128–255 meet `x`), the stacked bias `b4`. -/
def wholeCtx : Mat 131072 128 := mk2 fun r j => ctxNew x h ctx (topHalf T) (botHalf T) (rowOf b4) r j
/-- The new hidden state over the whole batch. -/
def wholeHid : Mat 131072 128 := mk2 fun r j => hidNew x h ctx (topHalf T) (botHalf T) (rowOf b4) r j
/-- The output over the whole batch, from the output weights `Wfc` (out × hidden) and bias `bfc`. -/
def wholeOut : Mat 131072 128 :=
  mk2 fun r j => out x h ctx (topHalf T) (botHalf T) (rowOf b4) (transp Wfc) (rowOf bfc) r j

end Whole

end Cert.Lstm

end
-- ==== Proof.LibPlainDot.lean ====
/-
  A plain matrix product read at an index, at the ideal values.

  For the dimension numbers of an `M × K` by `K × N` product with no batch axis (`DotDims.plain M K N`: the left
  operand contracted on its columns, the right on its rows), the operand indices at the result index `(r, c)` and the
  contraction position `k` are `(r, k)` and `(k, c)`. So both the host's `dot_general` and a kernel's `tpu.matmul`
  into a zero accumulator are, at `(r, c)`, the textbook sum `∑ k, X (r, k) · W (k, c)` over the extended reals —
  whatever the extents, the element formats of the operands and the precision or schedule keys.
-/
import Idealize.ShloMosaic.Lib.ValueIdx
import Idealize.ShloMosaic.PureOps.Ideal.Laws

noncomputable section

namespace Idealize.ShloMosaic.PlainDot

open Idealize.ShloMosaic Idealize.ShloMosaic.ValueIdx

variable {φ₁ φ₂ : FTy}

/-- The plain product contracts over one axis, -/
theorem contr_rank (M K N : Nat) : (DotDims.plain M K N).contr.rank = 1 := rfl
/-- of extent `K`. -/
theorem contr_size (M K N : Nat) : (DotDims.plain M K N).contr.size ⟨0, by rw [contr_rank]; omega⟩ = K := rfl

/-- The left operand's index at result index `(r, c)` and the `k`-th contraction position is `(r, k)`. -/
theorem lhsIdx_ix2 (M K N : Nat) (r : Fin M) (c : Fin N) (k : Fin K) :
    (DotDims.plain M K N).lhsIdx (ix2 r c) ((contrEquiv1 (DotDims.plain M K N) K rfl rfl).symm k) = ix2 r k :=
  funext fun a => Fin.ext (by
    match a with
    | ⟨0, _⟩ => rfl
    | ⟨1, _⟩ => exact contrEquiv1_symm_val (DotDims.plain M K N) K rfl rfl k)

/-- The right operand's is `(k, c)`. -/
theorem rhsIdx_ix2 (M K N : Nat) (r : Fin M) (c : Fin N) (k : Fin K) :
    (DotDims.plain M K N).rhsIdx (ix2 r c) ((contrEquiv1 (DotDims.plain M K N) K rfl rfl).symm k) = ix2 k c :=
  funext fun a => Fin.ext (by
    match a with
    | ⟨0, _⟩ => exact contrEquiv1_symm_val (DotDims.plain M K N) K rfl rfl k
    | ⟨1, _⟩ => rfl)

/-- The host's plain `dot_general` at `(r, c)`: the sum over `k` of `X (r, k) · W (k, c)`. -/
theorem dotGeneral_apply (M K N : Nat) (prec : Option ContractPrecision) (sched : HostSchedule)
    (X : FVec Ideal ⟨2, ![M, K]⟩ φ₁) (W : FVec Ideal ⟨2, ![K, N]⟩ φ₂) (r : Fin M) (c : Fin N) :
    FloatOps.dotGeneral (DotDims.plain M K N) prec sched X W (ix2 r c) = ∑ k : Fin K, X (ix2 r k) * W (ix2 k c) := by
  rw [Ideal.dotGeneral_apply, ← Equiv.sum_comp (contrEquiv1 (DotDims.plain M K N) K rfl rfl).symm]
  refine Finset.sum_congr rfl fun k _ => ?_
  rw [lhsIdx_ix2, rhsIdx_ix2]

/-- A kernel's plain `tpu.matmul` into the zero accumulator at `(r, c)`: the same sum. -/
theorem matmul_zero_apply (M K N : Nat) (prec : Option ContractPrecision)
    (X : FVec Ideal ⟨2, ![M, K]⟩ φ₁) (W : FVec Ideal ⟨2, ![K, N]⟩ φ₂) (r : Fin M) (c : Fin N) :
    FloatOps.matmul (DotDims.plain M K N) prec X W (constant ⟨2, ![M, N]⟩ .f32 0x00000000#32) (ix2 r c)
      = ∑ k : Fin K, X (ix2 r k) * W (ix2 k c) := by
  rw [Ideal.matmul_constant_zero_apply, ← Equiv.sum_comp (contrEquiv1 (DotDims.plain M K N) K rfl rfl).symm]
  refine Finset.sum_congr rfl fun k _ => ?_
  rw [lhsIdx_ix2, rhsIdx_ix2]

end Idealize.ShloMosaic.PlainDot

end
-- ==== Proof.KernelPay.lean ====
/-
  The kernel body's arithmetic, read at a row and a column, over the extended reals.

  The body computes, on a block of 2048 rows, four arrays.  The first is the 2048 × 512 array of gate pre-activations:
  the hidden block times the half of the transposed stacked weights that meets it, plus the input block times the other
  half (each product accumulated from zero, so each entry is the plain sum over the 128 contracted positions), plus the
  one-row bias repeated down the rows.  The second cuts that array into its four 128-column bands (forget, input,
  candidate and output) and forms the new cell state σ(f)·c + σ(i)·tanh(g); the third is the new hidden state
  σ(o)·tanh(new cell state); the fourth is the new hidden state times the transposed output weights, plus the one-row
  output bias repeated down the rows.  Entry by entry these are the specification's gate, ctxNew, hidNew and out.

  Last, the layout steps that prepare the kernel's arguments: the two 128-row halves of a 256-row matrix, the transpose
  of a square matrix, and a vector written as a one-row matrix, each equal to its index-level description.
-/
import proofs.«161597_j18116172055220_1_alg».proof.Proof.Gen.KernelIdeal.Skeleton
import proofs.«161597_j18116172055220_1_alg».proof.Proof.Spec
import proofs.«161597_j18116172055220_1_alg».proof.Proof.LibPlainDot
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Cert.Lstm Idealize.ShloMosaic Idealize.ShloMosaic.ValueIdx

/-! ## The two products -/

/-- The 2048 × 128 by 128 × 512 product from a zero accumulator, at row p and column c: the sum over the 128 contracted
    positions. -/
theorem matmul512_apply (X : FVec Ideal S2048x128 .f32) (W : FVec Ideal S128x512 .f32) (p : Fin 2048) (c : Fin 512) :
    FloatOps.matmul dot_S2048x128_S128x512_S2048x512_1_0_0_1_n_n none X W (constant S2048x512 .f32 0x00000000#32) (ix2 p c)
      = ∑ k : Fin 128, X (ix2 p k) * W (ix2 k c) :=
  PlainDot.matmul_zero_apply 2048 128 512 none X W p c

/-- The 2048 × 128 by 128 × 128 product from a zero accumulator, at row p and column q. -/
theorem matmul128_apply (X : FVec Ideal S2048x128 .f32) (W : FVec Ideal S128x128 .f32) (p : Fin 2048) (q : Fin 128) :
    FloatOps.matmul dot_S2048x128_S128x128_S2048x128_1_0_0_1_n_n none X W (constant S2048x128 .f32 0x00000000#32) (ix2 p q)
      = ∑ k : Fin 128, X (ix2 p k) * W (ix2 k q) :=
  PlainDot.matmul_zero_apply 2048 128 128 none X W p q

/-! ## The gate pre-activations -/

/-- Entry (p, c) of the first array is the specification's gate pre-activation. -/
theorem pay1_apply (v0 v1 : Vec Ideal S2048x128 .f32) (v2 v5 : Vec Ideal S128x512 .f32) (v9 : Vec Ideal S1x512 .f32)
    (p : Fin 2048) (c : Fin 512) :
    k0_pay1 (F := Ideal) v0 v1 v2 v5 v9 (ix2 p c) = gate (n := 2048) v1 v0 v2 v5 v9 p c := by
  show (FloatOps.matmul (F := Ideal) (φ₁ := .f32) (φ₂ := .f32) dot_S2048x128_S128x512_S2048x512_1_0_0_1_n_n none v0
            (shapeCast S128x512 v2 Gen.shapeCasts_S128x512_S128x512) (constant (F := Ideal) S2048x512 .f32 0x00000000#32) (ix2 p c)
          + FloatOps.matmul (F := Ideal) (φ₁ := .f32) (φ₂ := .f32) dot_S2048x128_S128x512_S2048x512_1_0_0_1_n_n none v1
            (shapeCast S128x512 v5 Gen.shapeCasts_S128x512_S128x512) (constant S2048x512 .f32 0x00000000#32) (ix2 p c))
        + broadcastTo S2048x512 (shapeCast S1x512 v9 Gen.shapeCasts_S1x512_S1x512) Gen.broadcasts_S1x512_S2048x512 (ix2 p c) = _
  rw [shapeCast_self, shapeCast_self, shapeCast_self, matmul512_apply, matmul512_apply, broadcastTo_1b_ab_apply]
  rfl

/-- The band of 128 columns starting at column o of the first array, at (p, q): the gate pre-activation at column o + q. -/
theorem band_apply (o : Nat) (ho : o + 128 ≤ 512) (h : S2048x512.Slices ![0, o] S2048x128)
    (v0 v1 : Vec Ideal S2048x128 .f32) (v2 v5 : Vec Ideal S128x512 .f32) (v9 : Vec Ideal S1x512 .f32)
    (p : Fin 2048) (q : Fin 128) :
    extractStridedSlice S2048x128 ![0, o] (k0_pay1 (F := Ideal) v0 v1 v2 v5 v9) h (ix2 p q)
      = gate (n := 2048) v1 v0 v2 v5 v9 p (col o ho q) :=
  (slice2_axis1_apply o (k0_pay1 (F := Ideal) v0 v1 v2 v5 v9) h p q (col o ho q) rfl).trans
    (pay1_apply v0 v1 v2 v5 v9 p (col o ho q))

/-! ## The new cell state, the new hidden state, the output -/

/-- Entry (p, q) of the second array is the specification's new cell state. -/
theorem pay2_apply (v0 v1 : Vec Ideal S2048x128 .f32) (v2 v5 : Vec Ideal S128x512 .f32) (v9 : Vec Ideal S1x512 .f32)
    (v21 : Vec Ideal S2048x128 .f32) (p : Fin 2048) (q : Fin 128) :
    k0_pay2 (F := Ideal) v0 v1 v2 v5 v9 v21 (ix2 p q) = ctxNew (n := 2048) v1 v0 v21 v2 v5 v9 p q := by
  show Ideal.logistic (extractStridedSlice S2048x128 ![0, 0] (k0_pay1 (F := Ideal) v0 v1 v2 v5 v9)
            Gen.slices_S2048x512_o0_0_S2048x128 (ix2 p q)) * v21 (ix2 p q)
        + Ideal.logistic (extractStridedSlice S2048x128 ![0, 128] (k0_pay1 (F := Ideal) v0 v1 v2 v5 v9)
            Gen.slices_S2048x512_o0_128_S2048x128 (ix2 p q))
          * Ideal.tanh (extractStridedSlice S2048x128 ![0, 256] (k0_pay1 (F := Ideal) v0 v1 v2 v5 v9)
            Gen.slices_S2048x512_o0_256_S2048x128 (ix2 p q)) = _
  rw [band_apply 0 (by omega), band_apply 128 (by omega), band_apply 256 (by omega)]
  rfl

/-- Entry (p, q) of the third array is the specification's new hidden state. -/
theorem pay3_apply (v0 v1 : Vec Ideal S2048x128 .f32) (v2 v5 : Vec Ideal S128x512 .f32) (v9 : Vec Ideal S1x512 .f32)
    (v21 : Vec Ideal S2048x128 .f32) (p : Fin 2048) (q : Fin 128) :
    k0_pay3 (F := Ideal) v0 v1 v2 v5 v9 v21 (ix2 p q) = hidNew (n := 2048) v1 v0 v21 v2 v5 v9 p q := by
  show Ideal.logistic (extractStridedSlice S2048x128 ![0, 384] (k0_pay1 (F := Ideal) v0 v1 v2 v5 v9)
            Gen.slices_S2048x512_o0_384_S2048x128 (ix2 p q))
        * Ideal.tanh (k0_pay2 (F := Ideal) v0 v1 v2 v5 v9 v21 (ix2 p q)) = _
  rw [band_apply 384 (by omega), pay2_apply]
  rfl

/-- Entry (p, q) of the fourth array is the specification's output. -/
theorem pay4_apply (v0 v1 : Vec Ideal S2048x128 .f32) (v2 v5 : Vec Ideal S128x512 .f32) (v9 : Vec Ideal S1x512 .f32)
    (v21 : Vec Ideal S2048x128 .f32) (v27 : Vec Ideal S128x128 .f32) (v30 : Vec Ideal S1x128 .f32)
    (p : Fin 2048) (q : Fin 128) :
    k0_pay4 (F := Ideal) v0 v1 v2 v5 v9 v21 v27 v30 (ix2 p q) = out (n := 2048) v1 v0 v21 v2 v5 v9 v27 v30 p q := by
  show FloatOps.matmul (F := Ideal) (φ₁ := .f32) (φ₂ := .f32) dot_S2048x128_S128x128_S2048x128_1_0_0_1_n_n none (k0_pay3 (F := Ideal) v0 v1 v2 v5 v9 v21)
          (shapeCast S128x128 v27 Gen.shapeCasts_S128x128_S128x128) (constant S2048x128 .f32 0x00000000#32) (ix2 p q)
        + broadcastTo S2048x128 (shapeCast S1x128 v30 Gen.shapeCasts_S1x128_S1x128) Gen.broadcasts_S1x128_S2048x128 (ix2 p q) = _
  rw [shapeCast_self, shapeCast_self, matmul128_apply, broadcastTo_1b_ab_apply]
  unfold out
  simp only [pay3_apply]

/-! ## The layout steps on the kernel's arguments -/

/-- Rows 0 … 127 of the 256-row matrix. -/
theorem slice_top (T : FVec Ideal S256x512 .f32) :
    extractStridedSlice S128x512 ![0, 0] T Facts₀.slices_S256x512_S128x512_0_0 = topHalf T := by
  funext i
  rw [eq_ix2 i]
  exact slice2_axis0_apply 0 T Facts₀.slices_S256x512_S128x512_0_0 (i 0) (i 1)
    ⟨(i 0).val, by have := idx2_lt0 i; omega⟩ (Nat.zero_add _).symm

/-- Rows 128 … 255 of the 256-row matrix. -/
theorem slice_bot (T : FVec Ideal S256x512 .f32) :
    extractStridedSlice S128x512 ![128, 0] T Facts₀.slices_S256x512_S128x512_128_0 = botHalf T := by
  funext i
  rw [eq_ix2 i]
  exact slice2_axis0_apply 128 T Facts₀.slices_S256x512_S128x512_128_0 (i 0) (i 1)
    ⟨128 + (i 0).val, by have := idx2_lt0 i; omega⟩ rfl

/-- The transpose of the square output weights. -/
theorem transpose_wfc (W : FVec Ideal S128x128 .f32) :
    transpose S128x128 [1, 0] W Facts₀.transposes_S128x128_S128x128_1_0 = transp W := by
  funext i
  rw [eq_ix2 i]
  exact transpose_ix2_apply W Facts₀.transposes_S128x128_S128x128_1_0 (i 0) (i 1)

/-- The 512 stacked biases as a one-row matrix. -/
theorem cast_b4 (v : FVec Ideal S512 .f32) : shapeCast S1x512 v Facts₀.shapeCasts_S512_S1x512 = rowOf v := by
  funext i
  rw [eq_ix2 i]
  exact shapeCast_a_1a_apply v Facts₀.shapeCasts_S512_S1x512 (i 0) (i 1)

/-- The 128 output biases as a one-row matrix. -/
theorem cast_bfc (v : FVec Ideal S128 .f32) : shapeCast S1x128 v Facts₀.shapeCasts_S128_S1x128 = rowOf v := by
  funext i
  rw [eq_ix2 i]
  exact shapeCast_a_1a_apply v Facts₀.shapeCasts_S128_S1x128 (i 0) (i 1)

end Cert.KernelIdeal.Pay

end
-- ==== Proof.ValueKI.lean ====
/-
  What the idealized kernel program leaves in its three result arrays, over the extended reals.

  The host operations before the launch leave: the stacked gate weights transposed, `T` (256 × 512), cut into its first
  128 rows and its last 128 rows; the stacked gate bias as one row; the output weights transposed; the output bias as one
  row.  At grid point `t` the body is handed rows `2048·t …` of `x`, `h`, `ctx` and those five arrays whole, and each value
  it stores at entry `(p, q)` of a block is the LSTM cell's value at row `2048·t + p`, column `q` of the whole batch —
  a row of the cell depends on that row of the inputs only.  The 64 write-backs cover each result array, so after the run
  each result array is the whole-batch function (`wholeOut`, `wholeHid`, `wholeCtx`) of the argument arrays.
-/
import proofs.«161597_j18116172055220_1_alg».proof.Proof.BlocksKI
import proofs.«161597_j18116172055220_1_alg».proof.Proof.KernelPay
import Idealize.ShloMosaic.Lib.StableHlo.Run

set_option maxRecDepth 16384

noncomputable section

namespace Cert.KernelIdeal.Val

open Cert.KernelIdeal Cert.KernelIdeal.Gen Cert.KernelIdeal.Fr Cert.KernelIdeal.Blk Cert.KernelIdeal.Pay Cert.Lstm
open Idealize.ShloMosaic Idealize.ShloMosaic.TcCoe Idealize.ShloMosaic.ValueIdx Idealize.SL.Sem Idealize.ShloMosaic.StableHlo
open Idealize.ShloMosaic.Pipeline (Dat)

/-! ## A block's values are the whole batch's at the block's rows -/

/-- The output: entry `j` of the block at point `tv` is entry `i` of the whole batch's, when `i` is `j` moved down by
    `2048·tv` rows, the batch blocks are the arrays' rows there and the small blocks are the host-prepared arrays. -/
theorem block_out (X H C : Mat 131072 128) (T : Mat 256 512) (B : Row 512) (Wfc : Mat 128 128) (bfc : Row 128)
    (x0 x1 x2 : Vec Ideal S2048x128 .f32) (x3 x4 : Vec Ideal S128x512 .f32) (x5 : Vec Ideal S1x512 .f32) (x6 : Vec Ideal S128x128 .f32) (x7 : Vec Ideal S1x128 .f32)
    (tv : Nat)
    (h0 : ∀ (j : S2048x128.Idx) (i : S131072x128.Idx), (i 0).val = 2048 * tv + (j 0).val → (i 1).val = (j 1).val → x0 j = X i)
    (h1 : ∀ (j : S2048x128.Idx) (i : S131072x128.Idx), (i 0).val = 2048 * tv + (j 0).val → (i 1).val = (j 1).val → x1 j = H i)
    (h2 : ∀ (j : S2048x128.Idx) (i : S131072x128.Idx), (i 0).val = 2048 * tv + (j 0).val → (i 1).val = (j 1).val → x2 j = C i)
    (h3 : x3 = topHalf T) (h4 : x4 = botHalf T) (h5 : x5 = rowOf B) (h6 : x6 = transp Wfc) (h7 : x7 = rowOf bfc)
    (j : S2048x128.Idx) (i : S131072x128.Idx) (hi0 : (i 0).val = 2048 * tv + (j 0).val) (hi1 : (i 1).val = (j 1).val) :
    k0_pay4 (F := Ideal) x1 x0 x3 x4 x5 x2 x6 x7 j = wholeOut X H C T B Wfc bfc i := by
  obtain ⟨p, q, rfl⟩ : ∃ (p : Fin 2048) (q : Fin 128), j = ix2 p q := ⟨j 0, j 1, eq_ix2 j⟩
  obtain ⟨r, s, rfl⟩ : ∃ (r : Fin 131072) (s : Fin 128), i = ix2 r s := ⟨i 0, i 1, eq_ix2 i⟩
  have hs : s = q := Fin.ext hi1
  subst hs
  subst h3 h4 h5 h6 h7
  rw [pay4_apply]
  unfold wholeOut
  rw [mk2_ix2]
  exact out_congr X H C x0 x1 x2 (topHalf T) (botHalf T) (rowOf B) (transp Wfc) (rowOf bfc) r p (fun k => h0 (ix2 p k) (ix2 r k) hi0 rfl) (fun k => h1 (ix2 p k) (ix2 r k) hi0 rfl) (fun k => h2 (ix2 p k) (ix2 r k) hi0 rfl) s

/-- The new hidden state, likewise. -/
theorem block_hid (X H C : Mat 131072 128) (T : Mat 256 512) (B : Row 512)
    (x0 x1 x2 : Vec Ideal S2048x128 .f32) (x3 x4 : Vec Ideal S128x512 .f32) (x5 : Vec Ideal S1x512 .f32)
    (tv : Nat)
    (h0 : ∀ (j : S2048x128.Idx) (i : S131072x128.Idx), (i 0).val = 2048 * tv + (j 0).val → (i 1).val = (j 1).val → x0 j = X i)
    (h1 : ∀ (j : S2048x128.Idx) (i : S131072x128.Idx), (i 0).val = 2048 * tv + (j 0).val → (i 1).val = (j 1).val → x1 j = H i)
    (h2 : ∀ (j : S2048x128.Idx) (i : S131072x128.Idx), (i 0).val = 2048 * tv + (j 0).val → (i 1).val = (j 1).val → x2 j = C i)
    (h3 : x3 = topHalf T) (h4 : x4 = botHalf T) (h5 : x5 = rowOf B)
    (j : S2048x128.Idx) (i : S131072x128.Idx) (hi0 : (i 0).val = 2048 * tv + (j 0).val) (hi1 : (i 1).val = (j 1).val) :
    k0_pay3 (F := Ideal) x1 x0 x3 x4 x5 x2 j = wholeHid X H C T B i := by
  obtain ⟨p, q, rfl⟩ : ∃ (p : Fin 2048) (q : Fin 128), j = ix2 p q := ⟨j 0, j 1, eq_ix2 j⟩
  obtain ⟨r, s, rfl⟩ : ∃ (r : Fin 131072) (s : Fin 128), i = ix2 r s := ⟨i 0, i 1, eq_ix2 i⟩
  have hs : s = q := Fin.ext hi1
  subst hs
  subst h3 h4 h5
  rw [pay3_apply]
  unfold wholeHid
  rw [mk2_ix2]
  exact hidNew_congr X H C x0 x1 x2 (topHalf T) (botHalf T) (rowOf B) r p (fun k => h0 (ix2 p k) (ix2 r k) hi0 rfl) (fun k => h1 (ix2 p k) (ix2 r k) hi0 rfl) (fun k => h2 (ix2 p k) (ix2 r k) hi0 rfl) s

/-- The new cell state, likewise. -/
theorem block_ctx (X H C : Mat 131072 128) (T : Mat 256 512) (B : Row 512)
    (x0 x1 x2 : Vec Ideal S2048x128 .f32) (x3 x4 : Vec Ideal S128x512 .f32) (x5 : Vec Ideal S1x512 .f32)
    (tv : Nat)
    (h0 : ∀ (j : S2048x128.Idx) (i : S131072x128.Idx), (i 0).val = 2048 * tv + (j 0).val → (i 1).val = (j 1).val → x0 j = X i)
    (h1 : ∀ (j : S2048x128.Idx) (i : S131072x128.Idx), (i 0).val = 2048 * tv + (j 0).val → (i 1).val = (j 1).val → x1 j = H i)
    (h2 : ∀ (j : S2048x128.Idx) (i : S131072x128.Idx), (i 0).val = 2048 * tv + (j 0).val → (i 1).val = (j 1).val → x2 j = C i)
    (h3 : x3 = topHalf T) (h4 : x4 = botHalf T) (h5 : x5 = rowOf B)
    (j : S2048x128.Idx) (i : S131072x128.Idx) (hi0 : (i 0).val = 2048 * tv + (j 0).val) (hi1 : (i 1).val = (j 1).val) :
    k0_pay2 (F := Ideal) x1 x0 x3 x4 x5 x2 j = wholeCtx X H C T B i := by
  obtain ⟨p, q, rfl⟩ : ∃ (p : Fin 2048) (q : Fin 128), j = ix2 p q := ⟨j 0, j 1, eq_ix2 j⟩
  obtain ⟨r, s, rfl⟩ : ∃ (r : Fin 131072) (s : Fin 128), i = ix2 r s := ⟨i 0, i 1, eq_ix2 i⟩
  have hs : s = q := Fin.ext hi1
  subst hs
  subst h3 h4 h5
  rw [pay2_apply]
  unfold wholeCtx
  rw [mk2_ix2]
  exact ctxNew_congr X H C x0 x1 x2 (topHalf T) (botHalf T) (rowOf B) r p (fun k => h0 (ix2 p k) (ix2 r k) hi0 rfl) (fun k => h1 (ix2 p k) (ix2 r k) hi0 rfl) (fun k => h2 (ix2 p k) (ix2 r k) hi0 rfl) s

variable (m : (ℓ : Loc nD τ sig) → Buf (Elt Ideal) ℓ) (ρ : Dev nD → PrngReg)

/-! ## The arrays the host operations prepare -/

/-- The four gate weight matrices stacked (512 × 256) and transposed (256 × 512). -/
def Tm (c : Dev nD) : FVec Ideal S256x512 .f32 :=
  transpose S256x512 [1, 0]
    (concatenate S512x256 0 [⟨S128x256, (m ((c : Thread nD τ).loc main_arg3))⟩, ⟨S128x256, (m ((c : Thread nD τ).loc main_arg5))⟩, ⟨S128x256, (m ((c : Thread nD τ).loc main_arg7))⟩, ⟨S128x256, (m ((c : Thread nD τ).loc main_arg9))⟩]
      Facts₀.concatenates_S128x256_S128x256_S128x256_S128x256_S512x256_d0)
    Facts₀.transposes_S512x256_S256x512_1_0

/-- The four gate biases stacked (512). -/
def Bm (c : Dev nD) : FVec Ideal S512 .f32 :=
  concatenate S512 0 [⟨S128, (m ((c : Thread nD τ).loc main_arg4))⟩, ⟨S128, (m ((c : Thread nD τ).loc main_arg6))⟩, ⟨S128, (m ((c : Thread nD τ).loc main_arg8))⟩, ⟨S128, (m ((c : Thread nD τ).loc main_arg10))⟩]
    Facts₀.concatenates_S128_S128_S128_S128_S512_d0

/-- The half of the transposed stacked weights that meets the hidden state: rows 0–127. -/
theorem V_v3 (c : Dev nD) : (V m c main_v3 : S128x512.Idx → EReal) = topHalf (Tm m c) := by
  have e : (V m c main_v3 : S128x512.Idx → EReal) = extractStridedSlice S128x512 ![0, 0] (Tm m c) Facts₀.slices_S256x512_S128x512_0_0 := by
    dsimp only [V, hostOps0]; after_results; try rfl
  rw [e]; exact slice_top _

/-- The half that meets the input: rows 128–255. -/
theorem V_v4 (c : Dev nD) : (V m c main_v4 : S128x512.Idx → EReal) = botHalf (Tm m c) := by
  have e : (V m c main_v4 : S128x512.Idx → EReal) = extractStridedSlice S128x512 ![128, 0] (Tm m c) Facts₀.slices_S256x512_S128x512_128_0 := by
    dsimp only [V, hostOps0]; after_results; try rfl
  rw [e]; exact slice_bot _

/-- The stacked bias as a one-row matrix. -/
theorem V_v5 (c : Dev nD) : (V m c main_v5 : S1x512.Idx → EReal) = rowOf (Bm m c) := by
  have e : (V m c main_v5 : S1x512.Idx → EReal) = shapeCast S1x512 (Bm m c) Facts₀.shapeCasts_S512_S1x512 := by
    dsimp only [V, hostOps0]; after_results; try rfl
  rw [e]; exact cast_b4 _

/-- The output weights transposed. -/
theorem V_v6 (c : Dev nD) : (V m c main_v6 : S128x128.Idx → EReal) = transp (m ((c : Thread nD τ).loc main_arg11)) := by
  have e : (V m c main_v6 : S128x128.Idx → EReal) = transpose S128x128 [1, 0] (m ((c : Thread nD τ).loc main_arg11)) Facts₀.transposes_S128x128_S128x128_1_0 := by
    dsimp only [V, hostOps0]; after_results; try rfl
  rw [e]; exact transpose_wfc _

/-- The output bias as a one-row matrix. -/
theorem V_v7 (c : Dev nD) : (V m c main_v7 : S1x128.Idx → EReal) = rowOf (m ((c : Thread nD τ).loc main_arg12)) := by
  have e : (V m c main_v7 : S1x128.Idx → EReal) = shapeCast S1x128 (m ((c : Thread nD τ).loc main_arg12)) Facts₀.shapeCasts_S128_S1x128 := by
    dsimp only [V, hostOps0]; after_results; try rfl
  rw [e]; exact cast_bfc _

/-! ## The three result arrays -/

/-- The output over the whole batch, of the launch's argument arrays. -/
def Gout (c : Dev nD) : Mat 131072 128 := wholeOut (m ((c : Thread nD τ).loc main_arg0)) (m ((c : Thread nD τ).loc main_arg1)) (m ((c : Thread nD τ).loc main_arg2)) (Tm m c) (Bm m c) (m ((c : Thread nD τ).loc main_arg11)) (m ((c : Thread nD τ).loc main_arg12))
/-- The new hidden state over the whole batch. -/
def Ghid (c : Dev nD) : Mat 131072 128 := wholeHid (m ((c : Thread nD τ).loc main_arg0)) (m ((c : Thread nD τ).loc main_arg1)) (m ((c : Thread nD τ).loc main_arg2)) (Tm m c) (Bm m c)
/-- The new cell state over the whole batch. -/
def Gctx (c : Dev nD) : Mat 131072 128 := wholeCtx (m ((c : Thread nD τ).loc main_arg0)) (m ((c : Thread nD τ).loc main_arg1)) (m ((c : Thread nD τ).loc main_arg2)) (Tm m c) (Bm m c)

/-- What point `t` writes back to the output array is block `t` of the whole batch's output. -/
theorem flushed8_eq (c : Dev nD) (t : Fin cfg0.N) :
    (dats m 0 c).flushed 8 t = ((cfg0.win 8).blk t).view.read (Elt Ideal) (Gout m c) := by
  show (cfg0.win 8).cut (grid0.coords t) ((dats m 0 c).after 8 t) = _
  rw [after0_8]
  unfold outO
  rw [View.canon_unit_zero hz]
  simp only [View.ld_unit_zero (S := S2048x128) hz, View.ld_unit_zero (S := S128x512) hz, View.ld_unit_zero (S := S1x512) hz,
    View.ld_unit_zero (S := S128x128) hz, View.ld_unit_zero (S := S1x128) hz]
  funext j
  show k0_pay4 (F := Ideal) (iblk m c 1 t) (iblk m c 0 t) (iblk m c 3 t) (iblk m c 4 t) (iblk m c 5 t) (iblk m c 2 t) (iblk m c 6 t) (iblk m c 7 t) j
    = Gout m c (((cfg0.win 8).blk t).view.emb j)
  exact block_out (m ((c : Thread nD τ).loc main_arg0)) (m ((c : Thread nD τ).loc main_arg1)) (m ((c : Thread nD τ).loc main_arg2)) (Tm m c) (Bm m c) (m ((c : Thread nD τ).loc main_arg11)) (m ((c : Thread nD τ).loc main_arg12))
    (iblk m c 0 t) (iblk m c 1 t) (iblk m c 2 t) (iblk m c 3 t) (iblk m c 4 t) (iblk m c 5 t) (iblk m c 6 t) (iblk m c 7 t)
    t.val (fun j i => blk0 m c t j i) (fun j i => blk1 m c t j i) (fun j i => blk2 m c t j i)
    ((blk3 m c t).trans (V_v3 m c)) ((blk4 m c t).trans (V_v4 m c)) ((blk5 m c t).trans (V_v5 m c)) ((blk6 m c t).trans (V_v6 m c)) ((blk7 m c t).trans (V_v7 m c))
    j (((cfg0.win 8).blk t).view.emb j) (emb8 t j).1 (emb8 t j).2

/-- What point `t` writes back to the hidden-state array is block `t` of the whole batch's new hidden state. -/
theorem flushed9_eq (c : Dev nD) (t : Fin cfg0.N) :
    (dats m 0 c).flushed 9 t = ((cfg0.win 9).blk t).view.read (Elt Ideal) (Ghid m c) := by
  show (cfg0.win 9).cut (grid0.coords t) ((dats m 0 c).after 9 t) = _
  rw [after0_9]
  unfold outH
  rw [View.canon_unit_zero hz]
  simp only [View.ld_unit_zero (S := S2048x128) hz, View.ld_unit_zero (S := S128x512) hz, View.ld_unit_zero (S := S1x512) hz,
    View.ld_unit_zero (S := S128x128) hz, View.ld_unit_zero (S := S1x128) hz]
  funext j
  show k0_pay3 (F := Ideal) (iblk m c 1 t) (iblk m c 0 t) (iblk m c 3 t) (iblk m c 4 t) (iblk m c 5 t) (iblk m c 2 t) j
    = Ghid m c (((cfg0.win 9).blk t).view.emb j)
  exact block_hid (m ((c : Thread nD τ).loc main_arg0)) (m ((c : Thread nD τ).loc main_arg1)) (m ((c : Thread nD τ).loc main_arg2)) (Tm m c) (Bm m c)
    (iblk m c 0 t) (iblk m c 1 t) (iblk m c 2 t) (iblk m c 3 t) (iblk m c 4 t) (iblk m c 5 t)
    t.val (fun j i => blk0 m c t j i) (fun j i => blk1 m c t j i) (fun j i => blk2 m c t j i)
    ((blk3 m c t).trans (V_v3 m c)) ((blk4 m c t).trans (V_v4 m c)) ((blk5 m c t).trans (V_v5 m c))
    j (((cfg0.win 9).blk t).view.emb j) (emb9 t j).1 (emb9 t j).2

/-- What point `t` writes back to the cell-state array is block `t` of the whole batch's new cell state. -/
theorem flushed10_eq (c : Dev nD) (t : Fin cfg0.N) :
    (dats m 0 c).flushed 10 t = ((cfg0.win 10).blk t).view.read (Elt Ideal) (Gctx m c) := by
  show (cfg0.win 10).cut (grid0.coords t) ((dats m 0 c).after 10 t) = _
  rw [after0_10]
  unfold outC
  rw [View.canon_unit_zero hz]
  simp only [View.ld_unit_zero (S := S2048x128) hz, View.ld_unit_zero (S := S128x512) hz, View.ld_unit_zero (S := S1x512) hz,
    View.ld_unit_zero (S := S128x128) hz, View.ld_unit_zero (S := S1x128) hz]
  funext j
  show k0_pay2 (F := Ideal) (iblk m c 1 t) (iblk m c 0 t) (iblk m c 3 t) (iblk m c 4 t) (iblk m c 5 t) (iblk m c 2 t) j
    = Gctx m c (((cfg0.win 10).blk t).view.emb j)
  exact block_ctx (m ((c : Thread nD τ).loc main_arg0)) (m ((c : Thread nD τ).loc main_arg1)) (m ((c : Thread nD τ).loc main_arg2)) (Tm m c) (Bm m c)
    (iblk m c 0 t) (iblk m c 1 t) (iblk m c 2 t) (iblk m c 3 t) (iblk m c 4 t) (iblk m c 5 t)
    t.val (fun j i => blk0 m c t j i) (fun j i => blk1 m c t j i) (fun j i => blk2 m c t j i)
    ((blk3 m c t).trans (V_v3 m c)) ((blk4 m c t).trans (V_v4 m c)) ((blk5 m c t).trans (V_v5 m c))
    j (((cfg0.win 10).blk t).view.emb j) (emb10 t j).1 (emb10 t j).2

/-- After the 64 write-backs each result array is the whole batch's function. -/
theorem final8 (c : Dev nD) : (dats m 0 c).arrAt 8 cfg0.N = Gout m c :=
  (dats m 0 c).arrAt_eq_of_cover 8 (Gout m c) (fun t _ => flushed8_eq m c t) cover8
theorem final9 (c : Dev nD) : (dats m 0 c).arrAt 9 cfg0.N = Ghid m c :=
  (dats m 0 c).arrAt_eq_of_cover 9 (Ghid m c) (fun t _ => flushed9_eq m c t) cover9
theorem final10 (c : Dev nD) : (dats m 0 c).arrAt 10 cfg0.N = Gctx m c :=
  (dats m 0 c).arrAt_eq_of_cover 10 (Gctx m c) (fun t _ => flushed10_eq m c t) cover10

/-! ## The run -/

/-- Every weakly fair execution of the idealized kernel program terminates without a fault, with the three result
    arrays at the whole batch's output, new hidden state and new cell state, and the thirteen arguments unchanged. -/
theorem run : θ_run defs (onTc (τ := τ) (main (F := Ideal))) ⟨m, fun _ => 0, ρ⟩ fun r => ∀ c : Dev nD,
      r.2.mem ((c.tc : Thread nD τ).loc main_v8_0) = Gout m c
      ∧ r.2.mem ((c.tc : Thread nD τ).loc main_v8_1) = Ghid m c
      ∧ r.2.mem ((c.tc : Thread nD τ).loc main_v8_2) = Gctx m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun r h c => ⟨((h c).1 8).trans (final8 m c), ((h c).1 9).trans (final9 m c), ((h c).1 10).trans (final10 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c)⟩)
    (run_main m ρ)

end Cert.KernelIdeal.Val

end
-- ==== Proof.RefSide.lean ====
/-
  The reference's three results, as the mathematics of one LSTM cell step followed by a linear layer.

  The reference joins the previous hidden state `h` and the input `x` side by side into a batch × 256 array, and
  multiplies it by the stacked, transposed gate weights `T` (256 × 512).  A sum over the 256 joined columns is the sum
  over the first 128 (where the joined array is `h`, meeting the top half of `T`) plus the sum over the last 128 (where
  it is `x`, meeting the bottom half of `T`): only associativity of addition is used.  The stacked bias is added at
  the column.  The four gates are column slices starting at 0, 128, 256 and 384; the reference spells the logistic
  function as `1 / (1 + e^{-t})`, the ones being the word of the real number one.  `T` and the stacked bias stay
  opaque throughout: only their values at an index are read.
-/
import proofs.«161597_j18116172055220_1_alg».proof.Proof.Gen.ReferenceIdeal.Read
import proofs.«161597_j18116172055220_1_alg».proof.Proof.Spec

noncomputable section

namespace Cert.ReferenceIdeal.RefValue

open Cert.ReferenceIdeal Cert.ReferenceIdeal.Read Cert.Lstm Idealize.ShloMosaic Idealize.ShloMosaic.ValueIdx
open scoped BigOperators

/-- The word `0x3F800000` is the real number one. -/
theorem one_word : Ideal.ofBits .f32 0x3F800000#32 = 1 := IdealRules.sign_bit.ideal_onePat .f32

/-- One over one plus the exponential of the negation is the logistic function, the ones spelt as words. -/
theorem logistic_spelt (t : EReal) :
    FloatOps.hostDivf (F := Ideal) (φ := .f32) (FloatOps.ofBits .f32 0x3F800000#32)
      (FloatOps.addf (FloatOps.ofBits .f32 0x3F800000#32) (FloatOps.hostUnary .exp (FloatOps.hostNegf t)))
      = Ideal.logistic t := by
  show Ideal.div (Ideal.ofBits .f32 0x3F800000#32) (Ideal.ofBits .f32 0x3F800000#32 + Ideal.exp (-t))
    = Ideal.div 1 (1 + Ideal.exp (-t))
  rw [one_word]

section Gate

variable (x0 x1 : (⟨S131072x128, .f32⟩ : BufTy).Contents (Elt Ideal))

/-- The joined array `[h, x]` at a column of the first half is `h` there. -/
theorem cat_left (r : Fin 131072) (c : Fin 512) (k : Fin 128) :
    val_main_v0 (F := Ideal) x0 x1 (lidx_main_v4 (ix2 r c) (Fin.castAdd 128 k)) = x1 (ix2 r k) := by
  unfold val_main_v0
  exact concatenate_pair_apply_left (t := S131072x256) (s₁ := S131072x128) (s₂ := S131072x128) (1 : Fin 2) x1 x0
    Gen.concatenates_S131072x128_S131072x128_S131072x256_d1 _ rfl (ix2 r k) (fun b => by
      match b with
      | ⟨0, _⟩ => rfl
      | ⟨1, _⟩ => rfl)

/-- The joined array `[h, x]` at a column of the second half is `x` at that column less 128. -/
theorem cat_right (r : Fin 131072) (c : Fin 512) (k : Fin 128) :
    val_main_v0 (F := Ideal) x0 x1 (lidx_main_v4 (ix2 r c) (Fin.natAdd 128 k)) = x0 (ix2 r k) := by
  unfold val_main_v0
  exact concatenate_pair_apply_right (t := S131072x256) (s₁ := S131072x128) (s₂ := S131072x128) (1 : Fin 2) x1 x0
    Gen.concatenates_S131072x128_S131072x128_S131072x256_d1 _ rfl rfl (ix2 r k)
    (fun b hb => by
      match b with
      | ⟨0, _⟩ => rfl
      | ⟨1, _⟩ => exact absurd rfl hb)
    (Nat.add_comm _ _)

end Gate

section GateSum

variable (x0 x1 : (⟨S131072x128, .f32⟩ : BufTy).Contents (Elt Ideal))
  (x3 x5 x7 x9 : (⟨S128x256, .f32⟩ : BufTy).Contents (Elt Ideal))
  (x4 x6 x8 x10 : (⟨S128, .f32⟩ : BufTy).Contents (Elt Ideal))

/-- Row `k` of the stacked weights, `k` in the first half, met at column `c`. -/
theorem ridx_top (r : Fin 131072) (c : Fin 512) (k : Fin 128) :
    ridx_main_v4 (ix2 r c) (Fin.castAdd 128 k) = ix2 (⟨k.val, by omega⟩ : Fin 256) c :=
  funext fun a => by match a with | ⟨0, _⟩ => rfl | ⟨1, _⟩ => rfl

/-- Row `128 + k` of the stacked weights, met at column `c`. -/
theorem ridx_bot (r : Fin 131072) (c : Fin 512) (k : Fin 128) :
    ridx_main_v4 (ix2 r c) (Fin.natAdd 128 k) = ix2 (⟨128 + k.val, by omega⟩ : Fin 256) c :=
  funext fun a => by match a with | ⟨0, _⟩ => rfl | ⟨1, _⟩ => rfl

/-- The bias broadcast over the rows is read at the column. -/
theorem bias_idx (r : Fin 131072) (c : Fin 512) : idx_main_v5 (idx_main_v6 (ix2 r c)) = ix1 c :=
  funext fun a => by match a with | ⟨0, _⟩ => rfl

/-- The pre-activations: the sum over the 256 joined columns is the sum over the hidden half plus the sum over the
    input half, and the broadcast bias is the bias at the column. -/
theorem ref_gate (r : Fin 131072) (c : Fin 512) :
    val_main_v7 (F := Ideal) x0 x1 x3 x4 x5 x6 x7 x8 x9 x10 (ix2 r c)
      = gate x0 x1 (topHalf (val_main_v3 (F := Ideal) x3 x5 x7 x9)) (botHalf (val_main_v3 (F := Ideal) x3 x5 x7 x9))
          (rowOf (val_main_v2 (F := Ideal) x4 x6 x8 x10)) r c := by
  rw [val_main_v7_apply, val_main_v4_apply, val_main_v6_apply, val_main_v5_apply, bias_idx]
  generalize val_main_v3 (F := Ideal) x3 x5 x7 x9 = T
  generalize val_main_v2 (F := Ideal) x4 x6 x8 x10 = B
  show (∑ k : Fin (128 + 128), val_main_v0 (F := Ideal) x0 x1 (lidx_main_v4 (ix2 r c) k) * T (ridx_main_v4 (ix2 r c) k))
      + B (ix1 c) = _
  rw [Fin.sum_univ_add]
  simp only [cat_left, cat_right, ridx_top, ridx_bot]
  rfl

end GateSum

section Cell

variable (x0 x1 x2 : (⟨S131072x128, .f32⟩ : BufTy).Contents (Elt Ideal))
  (x3 x5 x7 x9 : (⟨S128x256, .f32⟩ : BufTy).Contents (Elt Ideal))
  (x4 x6 x8 x10 : (⟨S128, .f32⟩ : BufTy).Contents (Elt Ideal))

/-- The four column slices start at columns 0, 128, 256 and 384. -/
theorem slice0 (r : Fin 131072) (j : Fin 128) : idx_main_v8 (ix2 r j) = ix2 r (col 0 (by omega) j) :=
  funext fun a => by
    match a with
    | ⟨0, _⟩ => rfl
    | ⟨1, _⟩ => exact Fin.ext (Nat.zero_add _).symm
theorem slice1 (r : Fin 131072) (j : Fin 128) : idx_main_v9 (ix2 r j) = ix2 r (col 128 (by omega) j) :=
  funext fun a => by match a with | ⟨0, _⟩ => rfl | ⟨1, _⟩ => rfl
theorem slice2 (r : Fin 131072) (j : Fin 128) : idx_main_v10 (ix2 r j) = ix2 r (col 256 (by omega) j) :=
  funext fun a => by match a with | ⟨0, _⟩ => rfl | ⟨1, _⟩ => rfl
theorem slice3 (r : Fin 131072) (j : Fin 128) : idx_main_v11 (ix2 r j) = ix2 r (col 384 (by omega) j) :=
  funext fun a => by match a with | ⟨0, _⟩ => rfl | ⟨1, _⟩ => rfl

/-- The forget gate: the logistic function of the first 128 columns. -/
theorem ref_forget (r : Fin 131072) (j : Fin 128) :
    val_main_v17 (F := Ideal) x0 x1 x3 x4 x5 x6 x7 x8 x9 x10 (ix2 r j)
      = Ideal.logistic (gate x0 x1 (topHalf (val_main_v3 (F := Ideal) x3 x5 x7 x9))
          (botHalf (val_main_v3 (F := Ideal) x3 x5 x7 x9)) (rowOf (val_main_v2 (F := Ideal) x4 x6 x8 x10)) r (col 0 (by omega) j)) := by
  rw [val_main_v17_apply, val_main_v16_apply, val_main_cst_0_apply, val_main_v15_apply, val_main_v14_apply,
    val_main_cst_apply, val_main_v13_apply, val_main_v12_apply, val_main_v8_apply, slice0, ref_gate, logistic_spelt]

/-- The input gate: the logistic function of the second 128 columns. -/
theorem ref_input (r : Fin 131072) (j : Fin 128) :
    val_main_v23 (F := Ideal) x0 x1 x3 x4 x5 x6 x7 x8 x9 x10 (ix2 r j)
      = Ideal.logistic (gate x0 x1 (topHalf (val_main_v3 (F := Ideal) x3 x5 x7 x9))
          (botHalf (val_main_v3 (F := Ideal) x3 x5 x7 x9)) (rowOf (val_main_v2 (F := Ideal) x4 x6 x8 x10)) r (col 128 (by omega) j)) := by
  rw [val_main_v23_apply, val_main_v22_apply, val_main_cst_2_apply, val_main_v21_apply, val_main_v20_apply,
    val_main_cst_1_apply, val_main_v19_apply, val_main_v18_apply, val_main_v9_apply, slice1, ref_gate, logistic_spelt]

/-- The candidate: tanh of the third 128 columns. -/
theorem ref_cand (r : Fin 131072) (j : Fin 128) :
    val_main_v24 (F := Ideal) x0 x1 x3 x4 x5 x6 x7 x8 x9 x10 (ix2 r j)
      = Ideal.tanh (gate x0 x1 (topHalf (val_main_v3 (F := Ideal) x3 x5 x7 x9))
          (botHalf (val_main_v3 (F := Ideal) x3 x5 x7 x9)) (rowOf (val_main_v2 (F := Ideal) x4 x6 x8 x10)) r (col 256 (by omega) j)) := by
  rw [val_main_v24_apply, val_main_v10_apply, slice2, ref_gate]
  rfl

/-- The output gate: the logistic function of the last 128 columns. -/
theorem ref_outgate (r : Fin 131072) (j : Fin 128) :
    val_main_v33 (F := Ideal) x0 x1 x3 x4 x5 x6 x7 x8 x9 x10 (ix2 r j)
      = Ideal.logistic (gate x0 x1 (topHalf (val_main_v3 (F := Ideal) x3 x5 x7 x9))
          (botHalf (val_main_v3 (F := Ideal) x3 x5 x7 x9)) (rowOf (val_main_v2 (F := Ideal) x4 x6 x8 x10)) r (col 384 (by omega) j)) := by
  rw [val_main_v33_apply, val_main_v32_apply, val_main_cst_4_apply, val_main_v31_apply, val_main_v30_apply,
    val_main_cst_3_apply, val_main_v29_apply, val_main_v28_apply, val_main_v11_apply, slice3, ref_gate, logistic_spelt]

/-- The new cell state at a row and a unit. -/
theorem ref_ctx_at (r : Fin 131072) (j : Fin 128) :
    val_main_v27 (F := Ideal) x0 x1 x2 x3 x4 x5 x6 x7 x8 x9 x10 (ix2 r j)
      = ctxNew x0 x1 x2 (topHalf (val_main_v3 (F := Ideal) x3 x5 x7 x9)) (botHalf (val_main_v3 (F := Ideal) x3 x5 x7 x9))
          (rowOf (val_main_v2 (F := Ideal) x4 x6 x8 x10)) r j := by
  rw [val_main_v27_apply, val_main_v25_apply, val_main_v26_apply, ref_forget, ref_input, ref_cand]
  rfl

/-- The new hidden state at a row and a unit. -/
theorem ref_hid_at (r : Fin 131072) (j : Fin 128) :
    val_main_v35 (F := Ideal) x0 x1 x2 x3 x4 x5 x6 x7 x8 x9 x10 (ix2 r j)
      = hidNew x0 x1 x2 (topHalf (val_main_v3 (F := Ideal) x3 x5 x7 x9)) (botHalf (val_main_v3 (F := Ideal) x3 x5 x7 x9))
          (rowOf (val_main_v2 (F := Ideal) x4 x6 x8 x10)) r j := by
  rw [val_main_v35_apply, val_main_v34_apply, ref_outgate, ref_ctx_at]
  rfl

end Cell

section Out

variable (x0 x1 x2 : (⟨S131072x128, .f32⟩ : BufTy).Contents (Elt Ideal))
  (x3 x5 x7 x9 : (⟨S128x256, .f32⟩ : BufTy).Contents (Elt Ideal))
  (x4 x6 x8 x10 : (⟨S128, .f32⟩ : BufTy).Contents (Elt Ideal))
  (x11 : (⟨S128x128, .f32⟩ : BufTy).Contents (Elt Ideal)) (x12 : (⟨S128, .f32⟩ : BufTy).Contents (Elt Ideal))

/-- The linear layer's sum runs along the row of the hidden state … -/
theorem lidx_out (r : Fin 131072) (j k : Fin 128) : lidx_main_v37 (ix2 r j) k = ix2 r k :=
  funext fun a => by match a with | ⟨0, _⟩ => rfl | ⟨1, _⟩ => rfl

/-- … and down the column of the transposed weights, which is along the row of the weights. -/
theorem ridx_out (r : Fin 131072) (j k : Fin 128) : idx_main_v36 (ridx_main_v37 (ix2 r j) k) = ix2 j k :=
  funext fun a => by match a with | ⟨0, _⟩ => rfl | ⟨1, _⟩ => rfl

/-- The output bias broadcast over the rows is read at the column. -/
theorem bias_out (r : Fin 131072) (j : Fin 128) : idx_main_v38 (idx_main_v39 (ix2 r j)) = ix1 j :=
  funext fun a => by match a with | ⟨0, _⟩ => rfl

/-- The output at a row and a column. -/
theorem ref_out_at (r : Fin 131072) (j : Fin 128) :
    val_main_v40 (F := Ideal) x0 x1 x2 x3 x4 x5 x6 x7 x8 x9 x10 x11 x12 (ix2 r j)
      = out x0 x1 x2 (topHalf (val_main_v3 (F := Ideal) x3 x5 x7 x9)) (botHalf (val_main_v3 (F := Ideal) x3 x5 x7 x9))
          (rowOf (val_main_v2 (F := Ideal) x4 x6 x8 x10)) (transp x11) (rowOf x12) r j := by
  rw [val_main_v40_apply, val_main_v37_apply, val_main_v39_apply, val_main_v38_apply, bias_out]
  simp only [val_main_v36_apply, lidx_out, ridx_out, ref_hid_at]
  rfl

end Out

/-! ## The three results over the whole batch -/

theorem ref_ctx (x0 x1 x2 : (⟨S131072x128, .f32⟩ : BufTy).Contents (Elt Ideal))
    (x3 x5 x7 x9 : (⟨S128x256, .f32⟩ : BufTy).Contents (Elt Ideal))
    (x4 x6 x8 x10 : (⟨S128, .f32⟩ : BufTy).Contents (Elt Ideal)) :
    val_main_v27 (F := Ideal) x0 x1 x2 x3 x4 x5 x6 x7 x8 x9 x10
      = wholeCtx x0 x1 x2 (val_main_v3 (F := Ideal) x3 x5 x7 x9) (val_main_v2 (F := Ideal) x4 x6 x8 x10) := by
  funext i
  obtain ⟨r, j, rfl⟩ : ∃ (r : Fin 131072) (j : Fin 128), i = ix2 r j := ⟨i 0, i 1, eq_ix2 i⟩
  exact ref_ctx_at x0 x1 x2 x3 x5 x7 x9 x4 x6 x8 x10 r j

theorem ref_hid (x0 x1 x2 : (⟨S131072x128, .f32⟩ : BufTy).Contents (Elt Ideal))
    (x3 x5 x7 x9 : (⟨S128x256, .f32⟩ : BufTy).Contents (Elt Ideal))
    (x4 x6 x8 x10 : (⟨S128, .f32⟩ : BufTy).Contents (Elt Ideal)) :
    val_main_v35 (F := Ideal) x0 x1 x2 x3 x4 x5 x6 x7 x8 x9 x10
      = wholeHid x0 x1 x2 (val_main_v3 (F := Ideal) x3 x5 x7 x9) (val_main_v2 (F := Ideal) x4 x6 x8 x10) := by
  funext i
  obtain ⟨r, j, rfl⟩ : ∃ (r : Fin 131072) (j : Fin 128), i = ix2 r j := ⟨i 0, i 1, eq_ix2 i⟩
  exact ref_hid_at x0 x1 x2 x3 x5 x7 x9 x4 x6 x8 x10 r j

theorem ref_out (x0 x1 x2 : (⟨S131072x128, .f32⟩ : BufTy).Contents (Elt Ideal))
    (x3 x5 x7 x9 : (⟨S128x256, .f32⟩ : BufTy).Contents (Elt Ideal))
    (x4 x6 x8 x10 : (⟨S128, .f32⟩ : BufTy).Contents (Elt Ideal))
    (x11 : (⟨S128x128, .f32⟩ : BufTy).Contents (Elt Ideal)) (x12 : (⟨S128, .f32⟩ : BufTy).Contents (Elt Ideal)) :
    val_main_v40 (F := Ideal) x0 x1 x2 x3 x4 x5 x6 x7 x8 x9 x10 x11 x12
      = wholeOut x0 x1 x2 (val_main_v3 (F := Ideal) x3 x5 x7 x9) (val_main_v2 (F := Ideal) x4 x6 x8 x10) x11 x12 := by
  funext i
  obtain ⟨r, j, rfl⟩ : ∃ (r : Fin 131072) (j : Fin 128), i = ix2 r j := ⟨i 0, i 1, eq_ix2 i⟩
  exact ref_out_at x0 x1 x2 x3 x5 x7 x9 x4 x6 x8 x10 x11 x12 r j

end Cert.ReferenceIdeal.RefValue

end
-- ==== Proof.lean ====
/-
  The certificate's five claims for one LSTM cell step followed by a linear layer, computed by a kernel over 64 blocks of
  2048 rows against a whole-batch reference.

  Both programs compute, for every row `r` of the batch and every unit `j`,
    gate r c  = Σ_k h[r,k]·T[k,c] + Σ_k x[r,k]·T[128+k,c] + b4[c]            (c over the 512 gate columns)
    ctx' r j  = σ(gate r j)·ctx[r,j] + σ(gate r (128+j))·tanh(gate r (256+j))
    h'   r j  = σ(gate r (384+j))·tanh(ctx' r j)
    out  r j  = Σ_k h'[r,k]·Wfc[j,k] + bfc[j]
  where `T` is the four gate weight matrices stacked and transposed and `b4` the four gate biases stacked.  The kernel
  multiplies the hidden state and the input by the two halves of `T` separately and adds; the reference joins `[h, x]`
  into one 256-column matrix and multiplies once: a sum over 256 terms split into its first and last 128, which needs
  only that addition of extended reals is associative.  The kernel's logistic function is one operation, the reference's is
  `1 / (1 + e^{-t})` spelt out: the same function of an extended real by definition.  No step uses that the inputs are
  finite.

  The kernel programs' runs and frames are proved in `FrameK` (bit-level program) and `FrameKI` (idealized program); the
  idealized kernel's three result arrays as whole-batch functions in `ValueKI`; the reference's three results as the same
  functions in `RefSide`; the shared mathematics in `Spec`.  The idealization rewrote nothing, so `preserves` is trivial.
-/
import proofs.«161597_j18116172055220_1_alg».proof.Defs
import proofs.«161597_j18116172055220_1_alg».proof.Proof.Gen.Kernel
import proofs.«161597_j18116172055220_1_alg».proof.Proof.Gen.KernelIdeal
import proofs.«161597_j18116172055220_1_alg».proof.Proof.Gen.ReferenceIdeal
import proofs.«161597_j18116172055220_1_alg».proof.Proof.Gen.Pre_finite_inputs
import proofs.«161597_j18116172055220_1_alg».proof.Proof.Gen.ReferenceIdeal.Run
import proofs.«161597_j18116172055220_1_alg».proof.Proof.Gen.ReferenceIdeal.Read
import proofs.«161597_j18116172055220_1_alg».proof.Proof.FrameK
import proofs.«161597_j18116172055220_1_alg».proof.Proof.ValueKI
import proofs.«161597_j18116172055220_1_alg».proof.Proof.RefSide

noncomputable section

namespace Cert.Proof

open Idealize.ShloMosaic Idealize.SL.Sem

/-- The bit-level kernel program terminates, faults nowhere and leaves its arguments unchanged. -/
theorem frame_k : Cert.frame_Kernel := fun m ρ _ => Cert.Kernel.Fr.frame m ρ

/-- So does the idealized kernel program. -/
theorem frame_ki : Cert.frame_KernelIdeal := fun m ρ _ => Cert.KernelIdeal.Fr.frame m ρ

/-- So does the reference: its run, with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The idealization rewrote no operation. -/
theorem preserves : Cert.preserves_Kernel_KernelIdeal := trivial

/-- The reference's stacked and transposed gate weights are the kernel program's: the same two host operations of the
    same four arguments. -/
theorem T_eq (m : (ℓ : Loc Cert.KernelIdeal.nD Cert.KernelIdeal.τ Cert.KernelIdeal.sig) → Buf (Elt Ideal) ℓ) (c : Dev Cert.KernelIdeal.nD) :
    Cert.ReferenceIdeal.Read.val_main_v3 (F := Ideal) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg7)) (m ((c.tc : Thread Cert.KernelIdeal.nD Cert.KernelIdeal.τ).loc Cert.KernelIdeal.main_arg9)) = Cert.KernelIdeal.Val.Tm m c := rfl

/-- The reference's stacked gate bias is the kernel program's. -/
theorem B_eq (m : (ℓ : Loc Cert.KernelIdeal.nD Cert.KernelIdeal.τ Cert.KernelIdeal.sig) → Buf (Elt Ideal) ℓ) (c : Dev Cert.KernelIdeal.nD) :
    Cert.ReferenceIdeal.Read.val_main_v2 (F := Ideal) (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg8)) (m ((c.tc : Thread Cert.KernelIdeal.nD Cert.KernelIdeal.τ).loc Cert.KernelIdeal.main_arg10)) = Cert.KernelIdeal.Val.Bm m c := rfl

/-- From memories that agree on the thirteen arguments, the idealized kernel program and the idealized reference both
    run to the end with the same output, new hidden state and new cell state, entry by entry as extended reals. -/
theorem algebraic : Cert.algebraic_KernelIdeal_ReferenceIdeal := by
  intro m ρ m' ρ' _ hagree
  refine ⟨fun c => Cert.KernelIdeal.Val.Gout m c, fun c => Cert.KernelIdeal.Val.Ghid m c, fun c => Cert.KernelIdeal.Val.Gctx m c,
    Cert.KernelIdeal.Val.run m ρ, ?_⟩
  refine (θ_run Cert.ReferenceIdeal.defs _ _).mono
    (fun _ h c => ⟨(h c).1.trans ?_, (h c).2.1.trans ?_, (h c).2.2.1.trans ?_, (h c).2.2.2⟩)
    (Cert.ReferenceIdeal.Value.run (F := Ideal) m' ρ')
  · obtain ⟨a0, a1, a2, a3, a4, a5, a6, a7, a8, a9, a10, a11, a12⟩ := hagree c
    rw [Cert.ReferenceIdeal.Read.val_main_v40_eq, Cert.ReferenceIdeal.RefValue.ref_out,
      a0, a1, a2, a3, a4, a5, a6, a7, a8, a9, a10, a11, a12, T_eq, B_eq]
    rfl
  · obtain ⟨a0, a1, a2, a3, a4, a5, a6, a7, a8, a9, a10, a11, a12⟩ := hagree c
    rw [Cert.ReferenceIdeal.Read.val_main_v35_eq, Cert.ReferenceIdeal.RefValue.ref_hid,
      a0, a1, a2, a3, a4, a5, a6, a7, a8, a9, a10, T_eq, B_eq]
    rfl
  · obtain ⟨a0, a1, a2, a3, a4, a5, a6, a7, a8, a9, a10, a11, a12⟩ := hagree c
    refine (Cert.ReferenceIdeal.Read.val_main_v27_eq (F := Ideal) _ _ _ _ _ _ _ _ _ _ _).trans ?_
    rw [Cert.ReferenceIdeal.RefValue.ref_ctx, a0, a1, a2, a3, a4, a5, a6, a7, a8, a9, a10, T_eq, B_eq]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
